-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_v13 main_v16
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S1x3072 : Shape := ⟨2, ![1, 3072]⟩
abbrev S4096x1024 : Shape := ⟨2, ![4096, 1024]⟩
abbrev S4096x3072 : Shape := ⟨2, ![4096, 3072]⟩
abbrev S512x1024 : Shape := ⟨2, ![512, 1024]⟩
abbrev S512x3072 : Shape := ⟨2, ![512, 3072]⟩
abbrev S2x2048x3x16x64 : Shape := ⟨5, ![2, 2048, 3, 16, 64]⟩
abbrev S3x2x2048x16x64 : Shape := ⟨5, ![3, 2, 2048, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S32x2048x64 : Shape := ⟨3, ![32, 2048, 64]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S2x2048x16x64 : Shape := ⟨4, ![2, 2048, 16, 64]⟩
abbrev S1x1024 : Shape := ⟨2, ![1, 1024]⟩

abbrev nBuf : Space → Nat
  | .hbm => 33
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x1024, .bf16⟩
  | .hbm, ⟨6, _⟩ => ⟨S1024x3072, .f32⟩
  | .hbm, ⟨7, _⟩ => ⟨S1024x3072, .bf16⟩
  | .hbm, ⟨8, _⟩ => ⟨S1x3072, .f32⟩
  | .hbm, ⟨9, _⟩ => ⟨S4096x1024, .bf16⟩
  | .hbm, ⟨10, _⟩ => ⟨S4096x3072, .bf16⟩
  | .hbm, ⟨11, _⟩ => ⟨S2x2048x3x16x64, .bf16⟩
  | .hbm, ⟨12, _⟩ => ⟨S3x2x2048x16x64, .bf16⟩
  | .hbm, ⟨13, _⟩ => ⟨S3x2x16x2048x64, .bf16⟩
  | .hbm, ⟨14, _⟩ => ⟨S1x2x16x2048x64, .bf16⟩
  | .hbm, ⟨15, _⟩ => ⟨S2x16x2048x64, .bf16⟩
  | .hbm, ⟨16, _⟩ => ⟨S1x2x16x2048x64, .bf16⟩
  | .hbm, ⟨17, _⟩ => ⟨S2x16x2048x64, .bf16⟩
  | .hbm, ⟨18, _⟩ => ⟨S1x2x16x2048x64, .bf16⟩
  | .hbm, ⟨19, _⟩ => ⟨S2x16x2048x64, .bf16⟩
  | .hbm, ⟨20, _⟩ => ⟨S32x2048x64, .bf16⟩
  | .hbm, ⟨21, _⟩ => ⟨S32x2048x64, .bf16⟩
  | .hbm, ⟨22, _⟩ => ⟨S32x2048x64, .bf16⟩
  | .hbm, ⟨23, _⟩ => ⟨S32x2048x64, .bf16⟩
  | .hbm, ⟨24, _⟩ => ⟨S2x16x2048x64, .bf16⟩
  | .hbm, ⟨25, _⟩ => ⟨S2x2048x16x64, .bf16⟩
  | .hbm, ⟨26, _⟩ => ⟨S2x2048x1024, .bf16⟩
  | .hbm, ⟨27, _⟩ => ⟨S4096x1024, .bf16⟩
  | .hbm, ⟨28, _⟩ => ⟨S1024x1024, .f32⟩
  | .hbm, ⟨29, _⟩ => ⟨S1024x1024, .bf16⟩
  | .hbm, ⟨30, _⟩ => ⟨S1x1024, .f32⟩
  | .hbm, ⟨31, _⟩ => ⟨S4096x1024, .f32⟩
  | .hbm, ⟨32, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S1x3072, .f32⟩
  | .local _ .vmem, ⟨4, _⟩ => ⟨S512x3072, .bf16⟩
  | .local _ .vmem, ⟨5, _⟩ => ⟨S512x3072, .bf16⟩
  | .local _ .vmem, ⟨6, _⟩ => ⟨S1x512x64, .bf16⟩
  | .local _ .vmem, ⟨7, _⟩ => ⟨S1x512x64, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x2048x64, .bf16⟩
  | .local _ .vmem, ⟨11, _⟩ => ⟨S1x2048x64, .bf16⟩
  | .local _ .vmem, ⟨12, _⟩ => ⟨S1x512x64, .bf16⟩
  | .local _ .vmem, ⟨13, _⟩ => ⟨S1x512x64, .bf16⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![32, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  transposes_S3072x1024_S1024x3072_1_0 : S3072x1024.Transposes [1, 0] S1024x3072
  shapeCasts_S3072_S1x3072 : S3072.ShapeCasts S1x3072
  shapeCasts_S2x2048x1024_S4096x1024 : S2x2048x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S512x3072 : S1x3072.Broadcasts S512x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  shapeCasts_S4096x3072_S2x2048x3x16x64 : S4096x3072.ShapeCasts S2x2048x3x16x64
  transposes_S2x2048x3x16x64_S3x2x2048x16x64_2_0_1_3_4 : S2x2048x3x16x64.Transposes [2, 0, 1, 3, 4] S3x2x2048x16x64
  transposes_S3x2x2048x16x64_S3x2x16x2048x64_0_1_3_2_4 : S3x2x2048x16x64.Transposes [0, 1, 3, 2, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  packedbf16_S1x512x64_S1x512x64_0_0_0 : (Rect.unit (s := S1x512x64) ![0, 0, 0] S1x512x64.size inb_S1x512x64_S1x512x64_0_0_0).PackedRows (EltTy.packing .bf16)
  shapeCasts_S32x2048x64_S2x16x2048x64 : S32x2048x64.ShapeCasts S2x16x2048x64
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  transposes_S1024x1024_S1024x1024_1_0 : S1024x1024.Transposes [1, 0] S1024x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3072.size a ≤ S1x3072.size a
  hwx0_2 : ∀ i : grid0.Coords, EltTy.bits .f32 = 32 ∨ (Rect.block (s := S1x3072) S1x3072.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3072.size a ≤ S4096x3072.size a
  hwx0_3 : ∀ i : grid0.Coords, EltTy.bits .bf16 = 32 ∨ (Rect.block (s := S4096x3072) S512x3072.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x64.size a ≤ S32x2048x64.size a
  hwx1_0 : ∀ i : grid1.Coords, EltTy.bits .bf16 = 32 ∨ (Rect.block (s := S32x2048x64) S1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x64.size a ≤ S32x2048x64.size a
  hwx1_1 : ∀ i : grid1.Coords, EltTy.bits .bf16 = 32 ∨ (Rect.block (s := S32x2048x64) S1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x64.size a ≤ S32x2048x64.size a
  hwx1_2 : ∀ i : grid1.Coords, EltTy.bits .bf16 = 32 ∨ (Rect.block (s := S32x2048x64) S1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x512x64.size a ≤ S32x2048x64.size a
  hwx1_3 : ∀ i : grid1.Coords, EltTy.bits .bf16 = 32 ∨ (Rect.block (s := S32x2048x64) S1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v4) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S512x3072.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v15) S1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v22) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S3x2x2048x16x64 : Shape := ⟨5, ![3, 2, 2048, 16, 64]⟩
abbrev S3x2x16x2048x64 : Shape := ⟨5, ![3, 2, 16, 2048, 64]⟩
abbrev S1x2x16x2048x64 : Shape := ⟨5, ![1, 2, 16, 2048, 64]⟩
abbrev S2x16x2048x64 : Shape := ⟨4, ![2, 16, 2048, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x2048x16x64 : Shape := ⟨4, ![2, 2048, 16, 64]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S2x2048x3072, .f32⟩
  | .hbm, ⟨6, _⟩ => ⟨S1x1x3072, .f32⟩
  | .hbm, ⟨7, _⟩ => ⟨S2x2048x3072, .f32⟩
  | .hbm, ⟨8, _⟩ => ⟨S2x2048x3072, .f32⟩
  | .hbm, ⟨9, _⟩ => ⟨S2x2048x3x16x64, .f32⟩
  | .hbm, ⟨10, _⟩ => ⟨S3x2x2048x16x64, .f32⟩
  | .hbm, ⟨11, _⟩ => ⟨S3x2x16x2048x64, .f32⟩
  | .hbm, ⟨12, _⟩ => ⟨S1x2x16x2048x64, .f32⟩
  | .hbm, ⟨13, _⟩ => ⟨S2x16x2048x64, .f32⟩
  | .hbm, ⟨14, _⟩ => ⟨S1x2x16x2048x64, .f32⟩
  | .hbm, ⟨15, _⟩ => ⟨S2x16x2048x64, .f32⟩
  | .hbm, ⟨16, _⟩ => ⟨S1x2x16x2048x64, .f32⟩
  | .hbm, ⟨17, _⟩ => ⟨S2x16x2048x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x16x2048x2048, .f32⟩
  | .hbm, ⟨23, _⟩ => ⟨S2x16x2048x2048, .f32⟩
  | .hbm, ⟨24, _⟩ => ⟨S2x16x2048x2048, .f32⟩
  | .hbm, ⟨25, _⟩ => ⟨S_, .f32⟩
  | .hbm, ⟨26, _⟩ => ⟨S2x16x2048, .f32⟩
  | .hbm, ⟨27, _⟩ => ⟨S_, .f32⟩
  | .hbm, ⟨28, _⟩ => ⟨S2x16x2048, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x2048, .f32⟩
  | .hbm, ⟨34, _⟩ => ⟨S_, .f32⟩
  | .hbm, ⟨35, _⟩ => ⟨S2x16x2048, .f32⟩
  | .hbm, ⟨36, _⟩ => ⟨S2x16x2048x1, .f32⟩
  | .hbm, ⟨37, _⟩ => ⟨S2x16x2048x2048, .f32⟩
  | .hbm, ⟨38, _⟩ => ⟨S2x16x2048x2048, .f32⟩
  | .hbm, ⟨39, _⟩ => ⟨S2x16x2048x64, .f32⟩
  | .hbm, ⟨40, _⟩ => ⟨S2x2048x16x64, .f32⟩
  | .hbm, ⟨41, _⟩ => ⟨S2x2048x1024, .f32⟩
  | .hbm, ⟨42, _⟩ => ⟨S2x2048x1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S2x2048x3072_0_1_2 : S1x1x3072.BroadcastsInDim S2x2048x3072 (![0, 1, 2] : Fin 3 → Fin S2x2048x3072.rank)
  shapeCasts_S2x2048x3072_S2x2048x3x16x64 : S2x2048x3072.ShapeCasts S2x2048x3x16x64
  transposes_S2x2048x3x16x64_S3x2x2048x16x64_2_0_1_3_4 : S2x2048x3x16x64.Transposes [2, 0, 1, 3, 4] S3x2x2048x16x64
  transposes_S3x2x2048x16x64_S3x2x16x2048x64_0_1_3_2_4 : S3x2x2048x16x64.Transposes [0, 1, 3, 2, 4] S3x2x16x2048x64
  slices_S3x2x16x2048x64_S1x2x16x2048x64_0_0_0_0_0 : S3x2x16x2048x64.Slices ![0, 0, 0, 0, 0] S1x2x16x2048x64
  shapeCasts_S1x2x16x2048x64_S2x16x2048x64 : S1x2x16x2048x64.ShapeCasts S2x16x2048x64
  slices_S3x2x16x2048x64_S1x2x16x2048x64_1_0_0_0_0 : S3x2x16x2048x64.Slices ![1, 0, 0, 0, 0] S1x2x16x2048x64
  slices_S3x2x16x2048x64_S1x2x16x2048x64_2_0_0_0_0 : S3x2x16x2048x64.Slices ![2, 0, 0, 0, 0] S1x2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S3072x1024_S2x2048x3072_2_1_01_0_n_n_wf : DotDims.WF S2x2048x1024 S3072x1024 S2x2048x3072 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]
  dot_S2x2048x1024_S1024x1024_S2x2048x1024_2_1_01_0_n_n_wf : DotDims.WF S2x2048x1024 S1024x1024 S2x2048x1024 [2] [1] [0, 1] [0] [] []

variable [Facts₀]

def dot_S2x2048x1024_S3072x1024_S2x2048x3072_2_1_01_0_n_n : DotDims S2x2048x1024 S3072x1024 S2x2048x3072 where
  lhsContracting := [2]
  rhsContracting := [1]
  lhsNonContracting := [0, 1]
  rhsNonContracting := [0]
  lhsBatch := []
  rhsBatch := []
  wf := dot_S2x2048x1024_S3072x1024_S2x2048x3072_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf

class Facts : Prop extends Facts₀ where

variable [Facts]
-- ==== Proof.KernelRun.lean ====
/-
  The idealized kernel's run, with its result array read.

  The program is seven segments: host operations, the projection of the input onto queries, keys and values, host
  operations, the attention of every head, host operations, the output projection, host operations. Every weakly
  fair execution ends with every unscoped buffer at the last boundary's contents; the frame theorem reads the five
  argument arrays off that state. Here the same final state is read once more, at the result array: it holds the last
  boundary's contents of that buffer, a term over the three pipelines' written-back arrays that the value modules open.
-/
import proofs.«177269_j88759794139141_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result array at the last
    boundary's contents and the five argument arrays as launched. -/
theorem run_result : θ_run defs (onTc (τ := τ) (main (F := F))) ⟨m, fun _ => 0, ρ⟩ (fun r => ∀ c : Dev nD,
      r.2.mem ((c.tc : Thread nD τ).loc main_v27) = W7 m ρ c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v27 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.KernelIdeal.RunValue

end
-- ==== Proof.LibMatmulPlain.lean ====
/-
  The product of an [M, K] matrix by a [K, N] matrix, read at an entry, on the extended reals, for any extents and
  element formats: entry (p, n) of the product taken into a zero accumulator is the sum over k of the left matrix's
  (p, k) entry times the right matrix's (k, n) entry; taken into an accumulator acc it is acc's entry plus that sum.
-/
import Idealize.ShloMosaic.PureOps.Ideal.Laws
import Idealize.ShloMosaic.Lib.ValueIdx

noncomputable section

namespace Cert.LibMatmulPlain

open Idealize.ShloMosaic Idealize.ShloMosaic.ValueIdx

/-- The dimension numbers of a plain matrix product: contract the left matrix's columns with the right one's rows. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row coordinate is the output entry's row. -/
theorem lhsIdx_row (j : (⟨2, ![M, N]⟩ : Shape).Idx) (q : (plainDims M K N wf).contr.Idx) :
    ((plainDims M K N wf).lhsIdx j q 0).val = (j 0).val := by
  unfold DotDims.lhsIdx
  rw [dif_neg (show ¬(0 : Fin 2) ∈ (plainDims M K N wf).lhsBatch from List.not_mem_nil),
    dif_pos (show (0 : Fin 2) ∈ (plainDims M K N wf).lhsNonContracting from List.mem_singleton.mpr rfl)]
  rfl

/-- The right operand's column coordinate is the output entry's column. -/
theorem rhsIdx_col (j : (⟨2, ![M, N]⟩ : Shape).Idx) (q : (plainDims M K N wf).contr.Idx) :
    ((plainDims M K N wf).rhsIdx j q 1).val = (j 1).val := by
  unfold DotDims.rhsIdx
  rw [dif_neg (show ¬(1 : Fin 2) ∈ (plainDims M K N wf).rhsBatch from List.not_mem_nil),
    dif_pos (show (1 : Fin 2) ∈ (plainDims M K N wf).rhsNonContracting from List.mem_singleton.mpr rfl)]
  rfl

/-- The left operand's index for output entry (p, n) and contraction index k is (p, k). -/
theorem lhsIdx_eq (p : Fin M) (n : Fin N) (k : Fin K) :
    (plainDims M K N wf).lhsIdx (ix2 p n) ((contrEquiv1 (plainDims M K N wf) K rfl rfl).symm k) = ix2 p k := by
  have hk := contrEquiv1_symm_val (plainDims M K N wf) K rfl rfl k
  funext a
  refine Fin.ext ?_
  match a with
  | ⟨0, _⟩ => exact lhsIdx_row wf _ _
  | ⟨1, _⟩ => exact ((plainDims M K N wf).lhsIdx_val_of_single rfl _ _).trans hk

/-- The right operand's index for output entry (p, n) and contraction index k is (k, n). -/
theorem rhsIdx_eq (p : Fin M) (n : Fin N) (k : Fin K) :
    (plainDims M K N wf).rhsIdx (ix2 p n) ((contrEquiv1 (plainDims M K N wf) K rfl rfl).symm k) = ix2 k n := by
  have hk := contrEquiv1_symm_val (plainDims M K N wf) K rfl rfl k
  funext a
  refine Fin.ext ?_
  match a with
  | ⟨0, _⟩ => exact ((plainDims M K N wf).rhsIdx_val_of_single rfl _ _).trans hk
  | ⟨1, _⟩ => exact rhsIdx_col wf _ _

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![K, N]⟩ φ₂) (acc : FVec Ideal ⟨2, ![M, N]⟩ .f32)
    (p : Fin M) (n : Fin N) :
    FloatOps.matmul (plainDims M K N wf) prec lhs rhs acc (ix2 p n)
      = acc (ix2 p n) + ∑ k : Fin K, lhs (ix2 p k) * rhs (ix2 k n) := by
  rw [Ideal.matmul_apply, ← Equiv.sum_comp (contrEquiv1 (plainDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![K, N]⟩ φ₂) (p : Fin M) (n : Fin N) :
    FloatOps.matmul (plainDims M K N wf) prec lhs rhs (constant ⟨2, ![M, N]⟩ .f32 0x00000000#32) (ix2 p n)
      = ∑ k : Fin K, lhs (ix2 p k) * rhs (ix2 k n) := by
  rw [matmul_apply wf prec lhs rhs _ p n]
  show Ideal.ofBits .f32 0x00000000#32 + _ = _
  rw [Ideal.ofBits_zero_f32, zero_add]

end Cert.LibMatmulPlain

end
-- ==== Proof.Region0.lean ====
/-
  The query-key-value projection (the first pipeline): what one grid step computes, and what the whole pipeline
  leaves in its output array.

  A grid step holds 512 rows of the [4096, 1024] input, the whole [1024, 3072] weight and the [1, 3072] bias row,
  and stores the 512 rows of the product plus the bias. On the extended reals, entry (p, n) of the stored block is
  the sum over k of input (p, k) times weight (k, n), plus bias n. The eight steps' blocks tile the [4096, 3072]
  output, so the array ends holding, at (r, n), the sum over k of input (r, k) times weight (k, n), plus bias n.
-/
import proofs.«177269_j88759794139141_2_alg».proof.Proof.Gen.KernelIdeal.Frame
import proofs.«177269_j88759794139141_2_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.ValueIdx Idealize.ShloMosaic.TcCoe Idealize.SL.Sem
open Idealize.ShloMosaic.Pipeline (Dat)

/-- The bias row broadcast down the 512 rows reads, at (p, n), the row's entry n. -/
theorem biasRow_apply (x2 : FVec Ideal S1x3072 .f32) (p : Fin 512) (n : Fin 3072) :
    broadcastTo S512x3072 (shapeCast S1x3072 x2 Facts₀.shapeCasts_S1x3072_S1x3072) Facts₀.broadcasts_S1x3072_S512x3072 (ix2 p n)
      = x2 (ix2 (0 : Fin 1) n) := by
  rw [shapeCast_self]
  exact broadcastTo_apply x2 Facts₀.broadcasts_S1x3072_S512x3072 (ix2 p n) (ix2 (0 : Fin 1) n) (fun a => match a with
    | ⟨0, _⟩ => by show 0 = if (1 : Nat) = 1 then 0 else p.val; rw [if_pos rfl]
    | ⟨1, _⟩ => by show n.val = if (3072 : Nat) = 1 then 0 else n.val; rw [if_neg (by decide)])

/-- One grid step's stored block at (p, n): row p of the input block against column n of the weight, plus bias n. -/
theorem pay_apply (x0 : Vec Ideal S512x1024 .bf16) (x1 : Vec Ideal S1024x3072 .bf16) (x2 : Vec Ideal S1x3072 .f32)
    (p : Fin 512) (n : Fin 3072) :
    k0_pay1 (F := Ideal) x0 x1 x2 (ix2 p n) = (∑ k : Fin 1024, x0 (ix2 p k) * x1 (ix2 k n)) + x2 (ix2 (0 : Fin 1) n) := by
  unfold k0_pay1
  rw [shapeCast_self, shapeCast_self]
  refine congrArg₂ (· + ·) ?_ (biasRow_apply x2 p n)
  exact Cert.LibMatmulPlain.matmul_zero_apply Facts₀.dot_S512x1024_S1024x3072_S512x3072_1_0_0_1_n_n_wf none x0 x1 p n

/-! ## From the eight blocks to the array -/

/-- A 1024-term sum of products of two arrays' entries plus one entry of a third, each read where a given index
    function says: the shape of one entry of the projection, before the places are named. -/
def rowDot (a : S4096x1024.Idx → EReal) (w : S1024x3072.Idx → EReal) (b : S1x3072.Idx → EReal)
    (ia : Fin 1024 → S4096x1024.Idx) (iw : Fin 1024 → S1024x3072.Idx) (ib : S1x3072.Idx) : EReal :=
  (∑ k : Fin 1024, a (ia k) * w (iw k)) + b ib

/-- The projection as one function of the three arrays the pipeline reads: at (r, n) the sum over k of input (r, k)
    times weight (k, n), plus bias n. -/
def proj (a : S4096x1024.Idx → EReal) (w : S1024x3072.Idx → EReal) (b : S1x3072.Idx → EReal) : S4096x3072.Idx → EReal :=
  fun i => rowDot a w b (fun k => ix2 (⟨(i 0).val, (i 0).isLt⟩ : Fin 4096) k) (fun k => ix2 k (⟨(i 1).val, (i 1).isLt⟩ : Fin 3072))
    (ix2 (0 : Fin 1) (⟨(i 1).val, (i 1).isLt⟩ : Fin 3072))

theorem zero_offsets : (![0, 0] : Fin 2 → Nat) = fun _ => 0 := funext fun a => by fin_cases a <;> rfl

/-- Where each window's block sits at grid step t: the input's and the output's row blocks move together, at block
    row t; the weight and the bias are whole, at block (0, 0). -/
theorem block_positions : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) ≤ 7 ∧ win0_3.index t (1 : Fin 2) = 0 :=
  (by decide +kernel : ∀ t : Fin grid0.N, _)

/-- Every one of the eight row blocks of the output is some grid step's. -/
theorem every_row_block : ∀ q : Fin 8, ∃ t : Fin cfg0.N, win0_3.index t = ![q.val, 0] :=
  (by decide +kernel : ∀ q : Fin 8, ∃ t : Fin grid0.N, win0_3.index t = ![q.val, 0])

section
variable (V : (c : Dev nD) → (b : Ref sig .tc) → Buf (Elt Ideal) ((c : Thread nD τ).loc b))

/-- What grid step t writes back is block t of the projection of the arrays the pipeline finds. -/
theorem flushed_eq (c : Dev nD) (t : Fin cfg0.N) :
    (dat0 V c).flushed 3 t = ((cfg0.win 3).blk t).view.read (Elt Ideal) (proj (V c main_v4) (V c main_v2) (V c main_v3)) := by
  show (cfg0.win 3).cut (grid0.coords t) ((dat0 V c).after 3 t) = _
  rw [after0_3]
  unfold out0_3
  rw [View.canon_unit_zero zero_offsets]
  simp only [View.ld_unit_zero (S := S512x1024) zero_offsets, View.ld_unit_zero (S := S1024x3072) zero_offsets,
    View.ld_unit_zero (S := S1x3072) zero_offsets]
  obtain ⟨e0, e1, e2, e3, e4, e5, e6, e7⟩ := block_positions t
  funext j
  obtain ⟨p, n, rfl⟩ : ∃ (p : Fin 512) (n : Fin 3072), j = ix2 p n := ⟨j 0, j 1, eq_ix2 j⟩
  refine (pay_apply (iblk0 V c 0 t) (iblk0 V c 1 t) (iblk0 V c 2 t) p n).trans ?_
  show rowDot (V c main_v4) (V c main_v2) (V c main_v3) (fun k => ((cfg0.win 0).blk t).view.emb (ix2 p k))
      (fun k => ((cfg0.win 1).blk t).view.emb (ix2 k n)) (((cfg0.win 2).blk t).view.emb (ix2 (0 : Fin 1) n))
    = proj (V c main_v4) (V c main_v2) (V c main_v3) (((cfg0.win 3).blk t).view.emb (ix2 p n))
  unfold proj
  have h3r : ((((cfg0.win 3).blk t).view.emb (ix2 p n)) 0).val = win0_3.index t (0 : Fin 2) * 512 + 1 * p.val := rfl
  have h3c : ((((cfg0.win 3).blk t).view.emb (ix2 p n)) 1).val = win0_3.index t (1 : Fin 2) * 3072 + 1 * n.val := rfl
  refine congr (congr (congrArg (rowDot _ _ _) (funext fun k => ?_)) (funext fun k => ?_)) ?_
  · funext a; apply Fin.ext
    match a with
    | ⟨0, _⟩ => show win0_0.index t (0 : Fin 2) * 512 + 1 * p.val = ((((cfg0.win 3).blk t).view.emb (ix2 p n)) 0).val; rw [h3r]; omega
    | ⟨1, _⟩ => show win0_0.index t (1 : Fin 2) * 1024 + 1 * k.val = k.val; omega
  · funext a; apply Fin.ext
    match a with
    | ⟨0, _⟩ => show win0_1.index t (0 : Fin 2) * 1024 + 1 * k.val = k.val; omega
    | ⟨1, _⟩ => show win0_1.index t (1 : Fin 2) * 3072 + 1 * n.val = ((((cfg0.win 3).blk t).view.emb (ix2 p n)) 1).val; rw [h3c]; omega
  · funext a; apply Fin.ext
    match a with
    | ⟨0, _⟩ => show win0_2.index t (0 : Fin 2) * 1 + 1 * 0 = 0; omega
    | ⟨1, _⟩ => show win0_2.index t (1 : Fin 2) * 3072 + 1 * n.val = ((((cfg0.win 3).blk t).view.emb (ix2 p n)) 1).val; rw [h3c]; omega

/-- An index of the output array is in grid step t's block iff each coordinate is in the block's range. -/
theorem mem_blk (t : Fin cfg0.N) (i : S4096x3072.Idx) :
    i ∈ ((cfg0.win 3).blk t).view.set ↔ ∀ a : Fin 2, win0_3.index t a * S512x3072.size a ≤ (i a).val
      ∧ (i a).val < win0_3.index t a * S512x3072.size a + S512x3072.size a := by
  show i ∈ ((View.whole main_v5).slice (win0_3.rect t)).set ↔ _
  rw [View.set_slice_whole, Rect.mem_set_unit]
  exact Iff.rfl

/-- The eight blocks cover the output: row r lies in the block of grid step r / 512. -/
theorem cover (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := every_row_block ⟨(i 0).val / 512, by omega⟩
  have q0 : win0_3.index t (0 : Fin 2) = (i 0).val / 512 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 3072 ≤ (i 1).val ∧ (i 1).val < win0_3.index t (1 : Fin 2) * 3072 + 3072; omega

/-- The output array after the pipeline: the projection of the arrays it found. -/
theorem array_eq (c : Dev nD) :
    (dat0 V c).arrAt 3 cfg0.N = proj (V c main_v4) (V c main_v2) (V c main_v3) :=
  (dat0 V c).arrAt_eq_of_cover 3 (proj (V c main_v4) (V c main_v2) (V c main_v3)) (fun t _ => flushed_eq V c t) cover

end

end Cert.KernelIdeal.Region0

end
-- ==== Proof.LibMatmulRows.lean ====
/-
  The product of an [M, K] matrix by the TRANSPOSE of an [N, K] matrix, read at an entry, on the extended reals, for any
  extents and element formats: both operands are contracted along their second axis, so entry (p, n) of the product
  taken into a zero accumulator is the sum over k of the left matrix's (p, k) entry times the right matrix's (n, k)
  entry — row p of the left against row n of the right; taken into an accumulator acc it is acc's entry plus that sum.
-/
import Idealize.ShloMosaic.PureOps.Ideal.Laws
import Idealize.ShloMosaic.Lib.ValueIdx

noncomputable section

namespace Cert.LibMatmulRows

open Idealize.ShloMosaic Idealize.ShloMosaic.ValueIdx

/-- The dimension numbers of a row-against-row product: contract the left matrix's columns with the right one's columns. -/
abbrev rowsDims (M K N : Nat)
    (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable {M K N : Nat} (wf : DotDims.WF ⟨2, ![M, K]⟩ ⟨2, ![N, K]⟩ ⟨2, ![M, N]⟩ [1] [1] [0] [0] [] [])

/-- The left operand's row coordinate is the output entry's row. -/
theorem lhsIdx_row (j : (⟨2, ![M, N]⟩ : Shape).Idx) (q : (rowsDims M K N wf).contr.Idx) :
    ((rowsDims M K N wf).lhsIdx j q 0).val = (j 0).val := by
  unfold DotDims.lhsIdx
  rw [dif_neg (show ¬(0 : Fin 2) ∈ (rowsDims M K N wf).lhsBatch from List.not_mem_nil),
    dif_pos (show (0 : Fin 2) ∈ (rowsDims M K N wf).lhsNonContracting from List.mem_singleton.mpr rfl)]
  rfl

/-- The right operand's ROW coordinate is the output entry's column. -/
theorem rhsIdx_row (j : (⟨2, ![M, N]⟩ : Shape).Idx) (q : (rowsDims M K N wf).contr.Idx) :
    ((rowsDims M K N wf).rhsIdx j q 0).val = (j 1).val := by
  unfold DotDims.rhsIdx
  rw [dif_neg (show ¬(0 : Fin 2) ∈ (rowsDims M K N wf).rhsBatch from List.not_mem_nil),
    dif_pos (show (0 : Fin 2) ∈ (rowsDims M K N wf).rhsNonContracting from List.mem_singleton.mpr rfl)]
  rfl

/-- The left operand's index for output entry (p, n) and contraction index k is (p, k). -/
theorem lhsIdx_eq (p : Fin M) (n : Fin N) (k : Fin K) :
    (rowsDims M K N wf).lhsIdx (ix2 p n) ((contrEquiv1 (rowsDims M K N wf) K rfl rfl).symm k) = ix2 p k := by
  have hk := contrEquiv1_symm_val (rowsDims M K N wf) K rfl rfl k
  funext a
  refine Fin.ext ?_
  match a with
  | ⟨0, _⟩ => exact lhsIdx_row wf _ _
  | ⟨1, _⟩ => exact ((rowsDims M K N wf).lhsIdx_val_of_single rfl _ _).trans hk

/-- The right operand's index for output entry (p, n) and contraction index k is (n, k). -/
theorem rhsIdx_eq (p : Fin M) (n : Fin N) (k : Fin K) :
    (rowsDims M K N wf).rhsIdx (ix2 p n) ((contrEquiv1 (rowsDims M K N wf) K rfl rfl).symm k) = ix2 n k := by
  have hk := contrEquiv1_symm_val (rowsDims M K N wf) K rfl rfl k
  funext a
  refine Fin.ext ?_
  match a with
  | ⟨0, _⟩ => exact rhsIdx_row wf _ _
  | ⟨1, _⟩ => exact ((rowsDims M K N wf).rhsIdx_val_of_single rfl _ _).trans hk

/-- Entry (p, n) of the product taken into an accumulator: the accumulator's entry plus the K-term sum. -/
theorem matmul_apply {φ₁ φ₂ : FTy} (prec : Option ContractPrecision)
    (lhs : FVec Ideal ⟨2, ![M, K]⟩ φ₁) (rhs : FVec Ideal ⟨2, ![N, K]⟩ φ₂) (acc : FVec Ideal ⟨2, ![M, N]⟩ .f32)
    (p : Fin M) (n : Fin N) :
    FloatOps.matmul (rowsDims M K N wf) prec lhs rhs acc (ix2 p n)
      = acc (ix2 p n) + ∑ k : Fin K, lhs (ix2 p k) * rhs (ix2 n k) := by
  rw [Ideal.matmul_apply, ← Equiv.sum_comp (contrEquiv1 (rowsDims M K N wf) K rfl rfl).symm]
  refine congrArg (acc (ix2 p n) + ·) (Finset.sum_congr rfl fun k _ => ?_)
  rw [lhsIdx_eq wf p n k, rhsIdx_eq wf p n k]

/-- Entry (p, n) of the product taken into the zero accumulator: the K-term sum alone. -/
theorem matmul_zero_apply {φ₁ φ₂ : FTy} (prec : Option ContractPrecision)
    (lhs : FVec Ideal ⟨2, ![M, K]⟩ φ₁) (rhs : FVec Ideal ⟨2, ![N, K]⟩ φ₂) (p : Fin M) (n : Fin N) :
    FloatOps.matmul (rowsDims M K N wf) prec lhs rhs (constant ⟨2, ![M, N]⟩ .f32 0x00000000#32) (ix2 p n)
      = ∑ k : Fin K, lhs (ix2 p k) * rhs (ix2 n k) := by
  rw [matmul_apply wf prec lhs rhs _ p n]
  show Ideal.ofBits .f32 0x00000000#32 + _ = _
  rw [Ideal.ofBits_zero_f32, zero_add]

end Cert.LibMatmulRows

end
-- ==== Proof.LibKeepdims.lean ====
/-
  A row statistic kept as a column, read at an index.

  A reduction over the last axis of an [a, b] array with the reduced axis kept gives an [a] vector reshaped to
  an [a, 1] column. Such a column meets a rank-2 array in two ways: broadcast along the columns of an [a, b]
  array, where element (p, q) reads row p of the column; or turned into a [1, a] row and broadcast along the
  rows of a [b, a] array, where element (p, q) reads row q of the column. The lemmas read each step at an index
  given by its coordinates, for any extents and any element type; the last reads the row sums themselves, on the
  extended reals, as finite sums over the reduced coordinate.
-/
import Idealize.ShloMosaic.Lib.Pipeline.Value
import Idealize.ShloMosaic.Lib.ValueIdx
import Idealize.ShloMosaic.PureOps.Ideal.Laws

noncomputable section

open scoped BigOperators

namespace Cert.Lib.Keepdims

open Idealize.ShloMosaic Idealize.ShloMosaic.ValueIdx

variable {α : Type}

/-- A vector reshaped [a] → [a, 1]: row `p` of the column is element `p` of the vector. -/
theorem castCol_apply {a : Nat} (v : (⟨1, ![a]⟩ : Shape).Idx → α)
    (h : (⟨1, ![a]⟩ : Shape).ShapeCasts ⟨2, ![a, 1]⟩) (p : Fin a) :
    shapeCast ⟨2, ![a, 1]⟩ v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A column broadcast [a, 1] → [a, b] along the columns: element (p, q) is the column's row `p`. -/
theorem bcastCol_apply {a b : Nat} (col : (⟨2, ![a, 1]⟩ : Shape).Idx → α)
    (h : (⟨2, ![a, 1]⟩ : Shape).Broadcasts ⟨2, ![a, b]⟩) (p : Fin a) (q : Fin b) :
    broadcastTo ⟨2, ![a, b]⟩ col h (ix2 p q) = col (ix2 p (0 : Fin 1)) :=
  broadcastTo_apply col h (ix2 p q) (ix2 p (0 : Fin 1)) (fun d => match d with
    | ⟨0, _⟩ => by
        show p.val = if a = 1 then 0 else p.val
        split_ifs with ha
        · subst ha; have := p.isLt; omega
        · rfl
    | ⟨1, _⟩ => by show 0 = if (1 : Nat) = 1 then 0 else q.val; rw [if_pos rfl])

/-- A column turned into a row, [a, 1] → [1, a], and broadcast along the rows to [b, a]: element (p, q) is the
    column's row `q`. -/
theorem bcastColAsRow_apply {a b : Nat} (col : (⟨2, ![a, 1]⟩ : Shape).Idx → α)
    (ht : (⟨2, ![a, 1]⟩ : Shape).Transposes [1, 0] ⟨2, ![1, a]⟩)
    (h : (⟨2, ![1, a]⟩ : Shape).Broadcasts ⟨2, ![b, a]⟩) (p : Fin b) (q : Fin a) :
    broadcastTo ⟨2, ![b, a]⟩ (transpose ⟨2, ![1, a]⟩ [1, 0] col ht) h (ix2 p q) = col (ix2 q (0 : Fin 1)) := by
  refine (broadcastTo_apply _ h (ix2 p q) (ix2 (0 : Fin 1) q) (fun d => match d with
    | ⟨0, _⟩ => by show 0 = if (1 : Nat) = 1 then 0 else p.val; rw [if_pos rfl]
    | ⟨1, _⟩ => by
        show q.val = if a = 1 then 0 else q.val
        split_ifs with ha
        · subst ha; have := q.isLt; omega
        · rfl)).trans ?_
  exact transpose_apply [1, 0] col ht (ix2 (0 : Fin 1) q) (ix2 q (0 : Fin 1)) (fun d => match d with
    | ⟨0, _⟩ => rfl
    | ⟨1, _⟩ => rfl)

/-- The sums of an [a, b] array's rows, on the extended reals, kept as a column: row `p` of the column is the sum
    over the `b` coordinates of row `p`. -/
theorem sumCol_apply {a b : Nat} {φ : FTy} (v : FVec Ideal ⟨2, ![a, b]⟩ φ) (acc : BitVec φ.bits)
    (hr : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (p : Fin a) :
    shapeCast ⟨2, ![a, 1]⟩ (multiReduction .add [1] ⟨1, ![a]⟩ v acc hr hφ hacc) hc (ix2 p (0 : Fin 1))
      = ∑ k : Fin b, v (ix2 p k) := by
  refine (castCol_apply _ hc p).trans ?_
  refine (Ideal.multiReduction_add_single v acc hr hφ hacc (ix1 p)).trans ?_
  refine Finset.sum_congr rfl fun k _ => ?_
  exact congrArg v (funext fun d => Fin.ext (by match d with | ⟨0, _⟩ => rfl | ⟨1, _⟩ => rfl))

end Cert.Lib.Keepdims

end
-- ==== Proof.LibSoftmaxRows.lean ====
/-
  The softmax of each row of an [a, b] array, as a vector program spells it, read at an entry.

  The program takes each row's maximum from minus infinity and keeps it as an [a, 1] column, broadcasts the column
  over the b columns, subtracts, exponentiates, sums each row of exponentials and keeps the sums as an [a, 1] column,
  broadcasts that column, and divides. On the extended reals entry (p, q) of the result is
  exp(s_q - m) / (sum over k of exp(s_k - m)), where s is row p of the array and m the maximum of that row from minus
  infinity: `softmaxRows_apply`, for any extents. `maxCol_apply` reads the kept column of row maxima alone, and
  `max_negInf_rowMax` says that one more maximum with minus infinity leaves a row's maximum as it is.
-/
import Idealize.ShloMosaic.Lib.Pipeline.Value
import Idealize.ShloMosaic.Lib.ValueIdx
import Idealize.ShloMosaic.PureOps.Ideal.Laws
import proofs.«177269_j88759794139141_2_alg».proof.Proof.LibKeepdims

noncomputable section

open scoped BigOperators

namespace Cert.Lib.SoftmaxRows

open Idealize.ShloMosaic Idealize.ShloMosaic.ValueIdx Cert.Lib.Keepdims

/-- Minus infinity, as the f32 word that spells it. -/
abbrev negInf : EReal := Ideal.ofBits .f32 0xFF800000#32

/-- The maximum of a row, taken from minus infinity. -/
def rowMax {n : Nat} (s : Fin n → EReal) : EReal := (Finset.univ : Finset (Fin n)).fold max negInf s

/-- Taking the maximum with minus infinity once more changes nothing: the fold already started there. -/
theorem max_negInf_rowMax {n : Nat} (s : Fin n → EReal) : max negInf (rowMax s) = rowMax s :=
  max_eq_right ((Finset.le_fold_max negInf).mpr (Or.inl le_rfl))

/-- The softmax of a row at position q: the exponential of the entry less the row's maximum, over the sum of all
    such exponentials of the row. -/
def softmax {n : Nat} (s : Fin n → EReal) (q : Fin n) : EReal :=
  Ideal.div (Ideal.exp (s q - rowMax s)) (∑ k : Fin n, Ideal.exp (s k - rowMax s))

variable {a b : Nat}

/-- The maxima of an [a, b] array's rows, from minus infinity, kept as a column: row p of the column is the maximum
    of row p. -/
theorem maxCol_apply (v : FVec Ideal ⟨2, ![a, b]⟩ .f32)
    (hr : (⟨2, ![a, b]⟩ : Shape).Reduces [1] ⟨1, ![a]⟩) (hφ : FKind.Formats .f32)
    (hacc : (0xFF800000#32 : BitVec FTy.f32.bits) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc (ix2 p (0 : Fin 1))
      = rowMax (fun k : Fin b => v (ix2 p k)) := by
  refine (castCol_apply _ hc p).trans ?_
  refine (Ideal.multiReduction_maximumf_single v _ hr hφ hacc (ix1 p)).trans ?_
  exact Finset.fold_congr fun k _ =>
    congrArg v (funext fun d => Fin.ext (by match d with | ⟨0, _⟩ => rfl | ⟨1, _⟩ => rfl))

/-- The row softmax as the vector program spells it, read at entry (p, q). -/
theorem softmaxRows_apply (s : FVec Ideal ⟨2, ![a, b]⟩ .f32)
    (hr : (⟨2, ![a, b]⟩ : Shape).Reduces [1] ⟨1, ![a]⟩) (hφ : FKind.Formats .f32)
    (haccM : (0xFF800000#32 : BitVec FTy.f32.bits) = FKind.maximumf.neutral .f32 hφ)
    (haccA : (0x00000000#32 : BitVec FTy.f32.bits) = FKind.add.neutral .f32 hφ)
    (hc : (⟨1, ![a]⟩ : Shape).ShapeCasts ⟨2, ![a, 1]⟩)
    (hb : (⟨2, ![a, 1]⟩ : Shape).Broadcasts ⟨2, ![a, b]⟩) (p : Fin a) (q : Fin b) :
    divf
        (exp (subf s (broadcastTo ⟨2, ![a, b]⟩
          (shapeCast ⟨2, ![a, 1]⟩ (multiReduction .maximumf [1] ⟨1, ![a]⟩ s 0xFF800000#32 hr hφ haccM) hc) hb)))
        (broadcastTo ⟨2, ![a, b]⟩
          (shapeCast ⟨2, ![a, 1]⟩
            (multiReduction .add [1] ⟨1, ![a]⟩
              (exp (subf s (broadcastTo ⟨2, ![a, b]⟩
                (shapeCast ⟨2, ![a, 1]⟩ (multiReduction .maximumf [1] ⟨1, ![a]⟩ s 0xFF800000#32 hr hφ haccM) hc) hb)))
              0x00000000#32 hr hφ haccA) hc) hb)
        (ix2 p q)
      = softmax (fun k : Fin b => s (ix2 p k)) q := by
  have he : ∀ k : Fin b,
      exp (subf s (broadcastTo ⟨2, ![a, b]⟩
          (shapeCast ⟨2, ![a, 1]⟩ (multiReduction .maximumf [1] ⟨1, ![a]⟩ s 0xFF800000#32 hr hφ haccM) hc) hb)) (ix2 p k)
        = Ideal.exp (s (ix2 p k) - rowMax (fun k : Fin b => s (ix2 p k))) := fun k =>
    congrArg (fun m => Ideal.exp (s (ix2 p k) - m))
      ((bcastCol_apply _ hb p k).trans (maxCol_apply s hr hφ haccM hc p))
  refine (congrArg₂ Ideal.div (he q) ((bcastCol_apply _ hb p q).trans (sumCol_apply _ _ hr hφ haccA hc p))).trans ?_
  unfold softmax
  exact congrArg (Ideal.div _) (Finset.sum_congr rfl fun k _ => he k)

end Cert.Lib.SoftmaxRows

end
-- ==== Proof.Attention.lean ====
/-
  Scaled dot-product attention for one query row, on the extended reals, and the scale it uses.

  One query row q of 64 entries meets 2048 key rows: score n is the dot product of q with key row n, times a scale c.
  The scores' softmax weighs the 2048 value rows, and entry d of the result is the weighted sum of the value rows'
  entries d. The kernel spells the scale as the f32 word of one eighth; the reference computes one over the square
  root of sixty-four. The two are the same number.
-/
import proofs.«177269_j88759794139141_2_alg».proof.Proof.LibSoftmaxRows
import Idealize.ShloMosaic.PureOps.Ideal.Laws

noncomputable section

open scoped BigOperators

namespace Cert.Attention

open Idealize.ShloMosaic Cert.Lib.SoftmaxRows

/-- The scaled scores of one query row against every key row. -/
def scores (q : Fin 64 → EReal) (K : Fin 2048 → Fin 64 → EReal) (c : EReal) : Fin 2048 → EReal :=
  fun n => (∑ d : Fin 64, q d * K n d) * c

/-- Entry d of the attention output for one query row: the softmax of its scores against the value rows. -/
def attend (q : Fin 64 → EReal) (K Vv : Fin 2048 → Fin 64 → EReal) (c : EReal) (d : Fin 64) : EReal :=
  ∑ n : Fin 2048, softmax (scores q K c) n * Vv n d

/-- The f32 word 0x42800000 is sixty-four. -/
theorem word_sixtyfour : Ideal.ofBits .f32 0x42800000#32 = ((64 : ℝ) : EReal) := by
  simp [Ideal.ofBits, Ideal.ieee, -EReal.coe_mul]; norm_num

/-- The f32 word 0x3F800000 is one. -/
theorem word_one : Ideal.ofBits .f32 0x3F800000#32 = ((1 : ℝ) : EReal) := by
  simp [Ideal.ofBits, Ideal.ieee, -EReal.coe_mul]; norm_num

/-- The f32 word 0x3E000000 is one eighth. -/
theorem word_eighth : Ideal.ofBits .f32 0x3E000000#32 = ((1 / 8 : ℝ) : EReal) := by
  simp [Ideal.ofBits, Ideal.ieee, -EReal.coe_mul]; norm_num

/-- The square root of sixty-four is eight. -/
theorem sqrt_sixtyfour : Real.sqrt 64 = 8 := by
  rw [show (64 : ℝ) = 8 ^ 2 by norm_num]
  exact Real.sqrt_sq (by norm_num)

/-- One eighth, as the kernel spells it, is one over the square root of sixty-four, as the reference computes it. -/
theorem scale_eq : Ideal.ofBits .f32 0x3E000000#32
    = Ideal.div (Ideal.ofBits .f32 0x3F800000#32) (Ideal.sqrt (Ideal.ofBits .f32 0x42800000#32)) := by
  rw [word_eighth, word_one, word_sixtyfour, Ideal.sqrt_coe, if_neg (by norm_num), sqrt_sixtyfour,
    Ideal.div_coe (by norm_num : (8 : ℝ) ≠ 0), ← EReal.coe_mul, one_mul]

end Cert.Attention

end
-- ==== Proof.Region1.lean ====
/-
  The attention of every head (the second pipeline): what one grid step computes, and what the whole pipeline leaves
  in its output array.

  The arrays are [32, 2048, 64]: 32 batch-head pairs, 2048 positions, 64 entries per head. A grid step (bh, qi) holds
  the 512 query rows qi*512 .. qi*512+511 of pair bh and all 2048 key rows and value rows of that pair. It multiplies
  the queries against the keys row by row, scales by one eighth, takes each row's softmax (the row maximum from minus
  infinity, subtract, exponentiate, divide by the row sum) and multiplies the weights into the value rows. On the
  extended reals, entry (p, d) of the stored block is the attention of query row p, read at d. The 128 steps' blocks
  tile the output, so the array ends holding, at (bh, s, d), the attention of query row s of pair bh against the keys
  and values of pair bh, read at d.
-/
import proofs.«177269_j88759794139141_2_alg».proof.Proof.Gen.KernelIdeal.Frame
import proofs.«177269_j88759794139141_2_alg».proof.Proof.LibMatmulPlain
import proofs.«177269_j88759794139141_2_alg».proof.Proof.LibMatmulRows
import proofs.«177269_j88759794139141_2_alg».proof.Proof.LibSoftmaxRows
import proofs.«177269_j88759794139141_2_alg».proof.Proof.Attention
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.ValueIdx Idealize.ShloMosaic.TcCoe Idealize.SL.Sem
open Idealize.ShloMosaic.Pipeline (Dat)
open Cert.Attention Cert.Lib.SoftmaxRows

/-- One grid step's stored block at (0, p, d): the attention of the block's query row p against the step's key and
    value rows, at the scale one eighth, read at d. -/
theorem pay_apply (x0 : Vec Ideal S1x512x64 .bf16) (x1 : Vec Ideal S1x2048x64 .bf16) (x2 : Vec Ideal S1x2048x64 .bf16)
    (p : Fin 512) (d : Fin 64) :
    k1_pay1 (F := Ideal) x0 x1 x2 (ix3 (0 : Fin 1) p d)
      = attend (fun d' => x0 (ix3 (0 : Fin 1) p d')) (fun n d' => x1 (ix3 (0 : Fin 1) n d'))
          (fun n d' => x2 (ix3 (0 : Fin 1) n d')) (Ideal.ofBits .f32 0x3E000000#32) d := by
  unfold k1_pay1
  refine (shapeCast_ab_1ab_apply _ Facts₀.shapeCasts_S512x64_S1x512x64 (0 : Fin 1) p d).trans ?_
  refine (Cert.LibMatmulPlain.matmul_zero_apply Facts₀.dot_S512x2048_S2048x64_S512x64_1_0_0_1_n_n_wf none _ _ p d).trans ?_
  unfold attend
  refine Finset.sum_congr rfl fun n _ => congrArg₂ (· * ·) ?_
    (shapeCast_1ab_ab_apply x2 Facts₀.shapeCasts_S1x2048x64_S2048x64 n d)
  refine (softmaxRows_apply _ Facts₀.reduces_S512x2048_S512 (.inl rfl) rfl rfl Facts₀.shapeCasts_S512_S512x1
    Facts₀.broadcasts_S512x1_S512x2048 p n).trans ?_
  refine congrArg (fun s => softmax s n) (funext fun k => ?_)
  unfold scores
  refine congrArg₂ (· * ·) ?_ rfl
  refine (Cert.LibMatmulRows.matmul_zero_apply Facts₀.dot_S512x64_S2048x64_S512x2048_1_1_0_0_n_n_wf none _ _ p k).trans ?_
  exact Finset.sum_congr rfl fun d' _ => congrArg₂ (· * ·)
    (shapeCast_1ab_ab_apply x0 Facts₀.shapeCasts_S1x512x64_S512x64 p d')
    (shapeCast_1ab_ab_apply x1 Facts₀.shapeCasts_S1x2048x64_S2048x64 k d')

/-! ## From the 128 blocks to the array -/

/-- The attention of one query row, with the query row, the key rows and the value rows each read out of a
    [32, 2048, 64] array where a given index function says. -/
def attendAt (q k v : S32x2048x64.Idx → EReal) (iq : Fin 64 → S32x2048x64.Idx)
    (ik iv : Fin 2048 → Fin 64 → S32x2048x64.Idx) (d : Fin 64) : EReal :=
  attend (fun d' => q (iq d')) (fun n d' => k (ik n d')) (fun n d' => v (iv n d')) (Ideal.ofBits .f32 0x3E000000#32) d

/-- The attention of every head as one function of the query, key and value arrays: at (bh, s, d) the attention of
    query row s of pair bh against the key and value rows of pair bh, read at d. -/
def attn (q k v : S32x2048x64.Idx → EReal) : S32x2048x64.Idx → EReal :=
  fun i => attendAt q k v
    (fun d' => ix3 (⟨(i 0).val, (i 0).isLt⟩ : Fin 32) (⟨(i 1).val, (i 1).isLt⟩ : Fin 2048) d')
    (fun n d' => ix3 (⟨(i 0).val, (i 0).isLt⟩ : Fin 32) n d')
    (fun n d' => ix3 (⟨(i 0).val, (i 0).isLt⟩ : Fin 32) n d')
    (⟨(i 2).val, (i 2).isLt⟩ : Fin 64)

theorem zero_offsets : (![0, 0, 0] : Fin 3 → Nat) = fun _ => 0 := funext fun a => by fin_cases a <;> rfl

/-- Where each window's block sits at grid step t: the query block and the output block move together, at pair
    block bh and row block qi; the key and value blocks are the whole pair, at (bh, 0, 0). -/
theorem block_positions : ∀ t : Fin cfg1.N,
    win1_0.index t (0 : Fin 3) = win1_3.index t (0 : Fin 3) ∧ win1_0.index t (1 : Fin 3) = win1_3.index t (1 : Fin 3)
    ∧ win1_0.index t (2 : Fin 3) = 0
    ∧ win1_1.index t (0 : Fin 3) = win1_3.index t (0 : Fin 3) ∧ win1_1.index t (1 : Fin 3) = 0 ∧ win1_1.index t (2 : Fin 3) = 0
    ∧ win1_2.index t (0 : Fin 3) = win1_3.index t (0 : Fin 3) ∧ win1_2.index t (1 : Fin 3) = 0 ∧ win1_2.index t (2 : Fin 3) = 0
    ∧ win1_3.index t (0 : Fin 3) ≤ 31 ∧ win1_3.index t (1 : Fin 3) ≤ 3 ∧ win1_3.index t (2 : Fin 3) = 0 :=
  (by decide +kernel : ∀ t : Fin grid1.N, _)

/-- Every one of the 32 x 4 blocks of the output is some grid step's. -/
theorem every_block : ∀ (q0 : Fin 32) (q1 : Fin 4), ∃ t : Fin cfg1.N, win1_3.index t = ![q0.val, q1.val, 0] :=
  (by decide +kernel : ∀ (q0 : Fin 32) (q1 : Fin 4), ∃ t : Fin grid1.N, win1_3.index t = ![q0.val, q1.val, 0])

section
variable (V : (c : Dev nD) → (b : Ref sig .tc) → Buf (Elt Ideal) ((c : Thread nD τ).loc b))

/-- What grid step t writes back is block t of the attention of the arrays the pipeline finds. -/
theorem flushed_eq (c : Dev nD) (t : Fin cfg1.N) :
    (dat1 V c).flushed 3 t
      = ((cfg1.win 3).blk t).view.read (Elt Ideal) (attn (V c main_v15) (V c main_v16) (V c main_v17)) := by
  show (cfg1.win 3).cut (grid1.coords t) ((dat1 V c).after 3 t) = _
  rw [after1_3]
  unfold out1_3
  rw [View.canon_unit_zero zero_offsets]
  simp only [View.ld_unit_zero (S := S1x512x64) zero_offsets, View.ld_unit_zero (S := S1x2048x64) zero_offsets]
  obtain ⟨e0, e1, e2, e3, e4, e5, e6, e7, e8, e9, e10, e11⟩ := block_positions t
  funext j
  obtain ⟨u, p, d, rfl⟩ : ∃ (u : Fin 1) (p : Fin 512) (d : Fin 64), j = ix3 u p d := ⟨j 0, j 1, j 2, eq_ix3 j⟩
  obtain rfl : u = 0 := Subsingleton.elim _ _
  refine (pay_apply (iblk1 V c 0 t) (iblk1 V c 1 t) (iblk1 V c 2 t) p d).trans ?_
  show attendAt (V c main_v15) (V c main_v16) (V c main_v17)
      (fun d' => ((cfg1.win 0).blk t).view.emb (ix3 (0 : Fin 1) p d'))
      (fun n d' => ((cfg1.win 1).blk t).view.emb (ix3 (0 : Fin 1) n d'))
      (fun n d' => ((cfg1.win 2).blk t).view.emb (ix3 (0 : Fin 1) n d')) d
    = attn (V c main_v15) (V c main_v16) (V c main_v17) (((cfg1.win 3).blk t).view.emb (ix3 (0 : Fin 1) p d))
  unfold attn
  have h3a : ((((cfg1.win 3).blk t).view.emb (ix3 (0 : Fin 1) p d)) 0).val = win1_3.index t (0 : Fin 3) * 1 + 1 * 0 := rfl
  have h3b : ((((cfg1.win 3).blk t).view.emb (ix3 (0 : Fin 1) p d)) 1).val = win1_3.index t (1 : Fin 3) * 512 + 1 * p.val := rfl
  have h3c : ((((cfg1.win 3).blk t).view.emb (ix3 (0 : Fin 1) p d)) 2).val = win1_3.index t (2 : Fin 3) * 64 + 1 * d.val := rfl
  refine congr (congr (congr (congrArg (attendAt _ _ _) (funext fun d' => ?_)) (funext fun n => funext fun d' => ?_))
    (funext fun n => funext fun d' => ?_)) (Fin.ext ?_)
  · funext a; apply Fin.ext
    match a with
    | ⟨0, _⟩ => show win1_0.index t (0 : Fin 3) * 1 + 1 * 0 = ((((cfg1.win 3).blk t).view.emb (ix3 (0 : Fin 1) p d)) 0).val; rw [h3a]; omega
    | ⟨1, _⟩ => show win1_0.index t (1 : Fin 3) * 512 + 1 * p.val = ((((cfg1.win 3).blk t).view.emb (ix3 (0 : Fin 1) p d)) 1).val; rw [h3b]; omega
    | ⟨2, _⟩ => show win1_0.index t (2 : Fin 3) * 64 + 1 * d'.val = d'.val; omega
  · funext a; apply Fin.ext
    match a with
    | ⟨0, _⟩ => show win1_1.index t (0 : Fin 3) * 1 + 1 * 0 = ((((cfg1.win 3).blk t).view.emb (ix3 (0 : Fin 1) p d)) 0).val; rw [h3a]; omega
    | ⟨1, _⟩ => show win1_1.index t (1 : Fin 3) * 2048 + 1 * n.val = n.val; omega
    | ⟨2, _⟩ => show win1_1.index t (2 : Fin 3) * 64 + 1 * d'.val = d'.val; omega
  · funext a; apply Fin.ext
    match a with
    | ⟨0, _⟩ => show win1_2.index t (0 : Fin 3) * 1 + 1 * 0 = ((((cfg1.win 3).blk t).view.emb (ix3 (0 : Fin 1) p d)) 0).val; rw [h3a]; omega
    | ⟨1, _⟩ => show win1_2.index t (1 : Fin 3) * 2048 + 1 * n.val = n.val; omega
    | ⟨2, _⟩ => show win1_2.index t (2 : Fin 3) * 64 + 1 * d'.val = d'.val; omega
  · show d.val = ((((cfg1.win 3).blk t).view.emb (ix3 (0 : Fin 1) p d)) 2).val
    rw [h3c]; omega

/-- An index of the output array is in grid step t's block iff each coordinate is in the block's range. -/
theorem mem_blk (t : Fin cfg1.N) (i : S32x2048x64.Idx) :
    i ∈ ((cfg1.win 3).blk t).view.set ↔ ∀ a : Fin 3, win1_3.index t a * S1x512x64.size a ≤ (i a).val
      ∧ (i a).val < win1_3.index t a * S1x512x64.size a + S1x512x64.size a := by
  show i ∈ ((View.whole main_v18).slice (win1_3.rect t)).set ↔ _
  rw [View.set_slice_whole, Rect.mem_set_unit]
  exact Iff.rfl

/-- The 128 blocks cover the output: (bh, s, d) lies in the block of the grid step at pair bh and row block s / 512. -/
theorem cover (i : S32x2048x64.Idx) :
    ∃ t : Fin cfg1.N, (cfg1.win 3).flush t = true ∧ i ∈ ((cfg1.win 3).blk t).view.set := by
  have hi0 : (i 0).val < 32 := (i 0).isLt
  have hi1 : (i 1).val < 2048 := (i 1).isLt
  have hi2 : (i 2).val < 64 := (i 2).isLt
  obtain ⟨t, ht⟩ := every_block ⟨(i 0).val, hi0⟩ ⟨(i 1).val / 512, by omega⟩
  have q0 : win1_3.index t (0 : Fin 3) = (i 0).val := congrFun ht 0
  have q1 : win1_3.index t (1 : Fin 3) = (i 1).val / 512 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 512 ≤ (i 1).val ∧ (i 1).val < win1_3.index t (1 : Fin 3) * 512 + 512; omega
  | ⟨2, _⟩ => show win1_3.index t (2 : Fin 3) * 64 ≤ (i 2).val ∧ (i 2).val < win1_3.index t (2 : Fin 3) * 64 + 64; omega

/-- The output array after the pipeline: the attention of the arrays it found. -/
theorem array_eq (c : Dev nD) :
    (dat1 V c).arrAt 3 cfg1.N = attn (V c main_v15) (V c main_v16) (V c main_v17) :=
  (dat1 V c).arrAt_eq_of_cover 3 (attn (V c main_v15) (V c main_v16) (V c main_v17)) (fun t _ => flushed_eq V c t) cover

end

end Cert.KernelIdeal.Region1

end
-- ==== Proof.Region2.lean ====
/-
  The output projection (the third pipeline): what one grid step computes, and what the whole pipeline leaves in its
  output array.

  A grid step holds 512 rows of the [4096, 1024] attention output, the whole [1024, 1024] weight and the [1, 1024]
  bias row, and stores the 512 rows of the product plus the bias. On the extended reals, entry (p, n) of the stored
  block is the sum over k of input (p, k) times weight (k, n), plus bias n. The eight steps' blocks tile the
  [4096, 1024] output, so the array ends holding, at (r, n), the sum over k of input (r, k) times weight (k, n),
  plus bias n.
-/
import proofs.«177269_j88759794139141_2_alg».proof.Proof.Gen.KernelIdeal.Frame
import proofs.«177269_j88759794139141_2_alg».proof.Proof.LibMatmulPlain
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.ValueIdx Idealize.ShloMosaic.TcCoe Idealize.SL.Sem
open Idealize.ShloMosaic.Pipeline (Dat)

/-- The bias row broadcast down the 512 rows reads, at (p, n), the row's entry n. -/
theorem biasRow_apply (x2 : FVec Ideal S1x1024 .f32) (p : Fin 512) (n : Fin 1024) :
    broadcastTo S512x1024 (shapeCast S1x1024 x2 Facts₀.shapeCasts_S1x1024_S1x1024) Facts₀.broadcasts_S1x1024_S512x1024 (ix2 p n)
      = x2 (ix2 (0 : Fin 1) n) := by
  rw [shapeCast_self]
  exact broadcastTo_apply x2 Facts₀.broadcasts_S1x1024_S512x1024 (ix2 p n) (ix2 (0 : Fin 1) n) (fun a => match a with
    | ⟨0, _⟩ => by show 0 = if (1 : Nat) = 1 then 0 else p.val; rw [if_pos rfl]
    | ⟨1, _⟩ => by show n.val = if (1024 : Nat) = 1 then 0 else n.val; rw [if_neg (by decide)])

/-- One grid step's stored block at (p, n): row p of the input block against column n of the weight, plus bias n. -/
theorem pay_apply (x0 : Vec Ideal S512x1024 .bf16) (x1 : Vec Ideal S1024x1024 .bf16) (x2 : Vec Ideal S1x1024 .f32)
    (p : Fin 512) (n : Fin 1024) :
    k2_pay1 (F := Ideal) x0 x1 x2 (ix2 p n) = (∑ k : Fin 1024, x0 (ix2 p k) * x1 (ix2 k n)) + x2 (ix2 (0 : Fin 1) n) := by
  unfold k2_pay1
  rw [shapeCast_self, shapeCast_self]
  refine congrArg₂ (· + ·) ?_ (biasRow_apply x2 p n)
  exact Cert.LibMatmulPlain.matmul_zero_apply Facts₀.dot_S512x1024_S1024x1024_S512x1024_1_0_0_1_n_n_wf none x0 x1 p n

/-! ## From the eight blocks to the array -/

/-- A 1024-term sum of products of two arrays' entries plus one entry of a third, each read where a given index
    function says: the shape of one entry of the projection, before the places are named. -/
def rowDot (a : S4096x1024.Idx → EReal) (w : S1024x1024.Idx → EReal) (b : S1x1024.Idx → EReal)
    (ia : Fin 1024 → S4096x1024.Idx) (iw : Fin 1024 → S1024x1024.Idx) (ib : S1x1024.Idx) : EReal :=
  (∑ k : Fin 1024, a (ia k) * w (iw k)) + b ib

/-- The projection as one function of the three arrays the pipeline reads: at (r, n) the sum over k of input (r, k)
    times weight (k, n), plus bias n. -/
def proj (a : S4096x1024.Idx → EReal) (w : S1024x1024.Idx → EReal) (b : S1x1024.Idx → EReal) : S4096x1024.Idx → EReal :=
  fun i => rowDot a w b (fun k => ix2 (⟨(i 0).val, (i 0).isLt⟩ : Fin 4096) k) (fun k => ix2 k (⟨(i 1).val, (i 1).isLt⟩ : Fin 1024))
    (ix2 (0 : Fin 1) (⟨(i 1).val, (i 1).isLt⟩ : Fin 1024))

theorem zero_offsets : (![0, 0] : Fin 2 → Nat) = fun _ => 0 := funext fun a => by fin_cases a <;> rfl

/-- Where each window's block sits at grid step t: the input's and the output's row blocks move together, at block
    row t; the weight and the bias are whole, at block (0, 0). -/
theorem block_positions : ∀ t : Fin cfg2.N, win2_0.index t (0 : Fin 2) = win2_3.index t (0 : Fin 2)
    ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) ≤ 7 ∧ win2_3.index t (1 : Fin 2) = 0 :=
  (by decide +kernel : ∀ t : Fin grid2.N, _)

/-- Every one of the eight row blocks of the output is some grid step's. -/
theorem every_row_block : ∀ q : Fin 8, ∃ t : Fin cfg2.N, win2_3.index t = ![q.val, 0] :=
  (by decide +kernel : ∀ q : Fin 8, ∃ t : Fin grid2.N, win2_3.index t = ![q.val, 0])

section
variable (V : (c : Dev nD) → (b : Ref sig .tc) → Buf (Elt Ideal) ((c : Thread nD τ).loc b))

/-- What grid step t writes back is block t of the projection of the arrays the pipeline finds. -/
theorem flushed_eq (c : Dev nD) (t : Fin cfg2.N) :
    (dat2 V c).flushed 3 t = ((cfg2.win 3).blk t).view.read (Elt Ideal) (proj (V c main_v22) (V c main_v24) (V c main_v25)) := by
  show (cfg2.win 3).cut (grid2.coords t) ((dat2 V c).after 3 t) = _
  rw [after2_3]
  unfold out2_3
  rw [View.canon_unit_zero zero_offsets]
  simp only [View.ld_unit_zero (S := S512x1024) zero_offsets, View.ld_unit_zero (S := S1024x1024) zero_offsets,
    View.ld_unit_zero (S := S1x1024) zero_offsets]
  obtain ⟨e0, e1, e2, e3, e4, e5, e6, e7⟩ := block_positions t
  funext j
  obtain ⟨p, n, rfl⟩ : ∃ (p : Fin 512) (n : Fin 1024), j = ix2 p n := ⟨j 0, j 1, eq_ix2 j⟩
  refine (pay_apply (iblk2 V c 0 t) (iblk2 V c 1 t) (iblk2 V c 2 t) p n).trans ?_
  show rowDot (V c main_v22) (V c main_v24) (V c main_v25) (fun k => ((cfg2.win 0).blk t).view.emb (ix2 p k))
      (fun k => ((cfg2.win 1).blk t).view.emb (ix2 k n)) (((cfg2.win 2).blk t).view.emb (ix2 (0 : Fin 1) n))
    = proj (V c main_v22) (V c main_v24) (V c main_v25) (((cfg2.win 3).blk t).view.emb (ix2 p n))
  unfold proj
  have h3r : ((((cfg2.win 3).blk t).view.emb (ix2 p n)) 0).val = win2_3.index t (0 : Fin 2) * 512 + 1 * p.val := rfl
  have h3c : ((((cfg2.win 3).blk t).view.emb (ix2 p n)) 1).val = win2_3.index t (1 : Fin 2) * 1024 + 1 * n.val := rfl
  refine congr (congr (congrArg (rowDot _ _ _) (funext fun k => ?_)) (funext fun k => ?_)) ?_
  · funext a; apply Fin.ext
    match a with
    | ⟨0, _⟩ => show win2_0.index t (0 : Fin 2) * 512 + 1 * p.val = ((((cfg2.win 3).blk t).view.emb (ix2 p n)) 0).val; rw [h3r]; omega
    | ⟨1, _⟩ => show win2_0.index t (1 : Fin 2) * 1024 + 1 * k.val = k.val; omega
  · funext a; apply Fin.ext
    match a with
    | ⟨0, _⟩ => show win2_1.index t (0 : Fin 2) * 1024 + 1 * k.val = k.val; omega
    | ⟨1, _⟩ => show win2_1.index t (1 : Fin 2) * 1024 + 1 * n.val = ((((cfg2.win 3).blk t).view.emb (ix2 p n)) 1).val; rw [h3c]; omega
  · funext a; apply Fin.ext
    match a with
    | ⟨0, _⟩ => show win2_2.index t (0 : Fin 2) * 1 + 1 * 0 = 0; omega
    | ⟨1, _⟩ => show win2_2.index t (1 : Fin 2) * 1024 + 1 * n.val = ((((cfg2.win 3).blk t).view.emb (ix2 p n)) 1).val; rw [h3c]; omega

/-- An index of the output array is in grid step t's block iff each coordinate is in the block's range. -/
theorem mem_blk (t : Fin cfg2.N) (i : S4096x1024.Idx) :
    i ∈ ((cfg2.win 3).blk t).view.set ↔ ∀ a : Fin 2, win2_3.index t a * S512x1024.size a ≤ (i a).val
      ∧ (i a).val < win2_3.index t a * S512x1024.size a + S512x1024.size a := by
  show i ∈ ((View.whole main_v26).slice (win2_3.rect t)).set ↔ _
  rw [View.set_slice_whole, Rect.mem_set_unit]
  exact Iff.rfl

/-- The eight blocks cover the output: row r lies in the block of grid step r / 512. -/
theorem cover (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := every_row_block ⟨(i 0).val / 512, by omega⟩
  have q0 : win2_3.index t (0 : Fin 2) = (i 0).val / 512 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The output array after the pipeline: the projection of the arrays it found. -/
theorem array_eq (c : Dev nD) :
    (dat2 V c).arrAt 3 cfg2.N = proj (V c main_v22) (V c main_v24) (V c main_v25) :=
  (dat2 V c).arrAt_eq_of_cover 3 (proj (V c main_v22) (V c main_v24) (V c main_v25)) (fun t _ => flushed_eq V c t) cover

end

end Cert.KernelIdeal.Region2

end
-- ==== Proof.Boundaries.lean ====
/-
  The idealized kernel's buffers at the boundaries between its seven segments, read back to the arguments.

  Before the first pipeline the host reshapes the input to [4096, 1024], transposes the projection weight and lays
  the bias out as a row. The pipeline leaves the projection. The host then views its 3072 columns as three groups of
  16 heads of 64 entries, moves the group axis to the front and the head axis before the position axis, slices the
  three groups apart and flattens batch and head into 32 pairs: the query, key and value arrays. The second pipeline
  leaves the attention. The host moves the head axis back behind the position axis and flattens heads and entries
  into 1024 columns, transposes the output weight and lays its bias out as a row; neither the pipelines nor the host
  wrote the two output-projection arguments, so they are read as launched. The third pipeline leaves the output
  projection, which the host reshapes to the result. A change of float format is the identity on the extended reals.
-/
import proofs.«177269_j88759794139141_2_alg».proof.Proof.Gen.KernelIdeal.Frame
import proofs.«177269_j88759794139141_2_alg».proof.Proof.Region0
import proofs.«177269_j88759794139141_2_alg».proof.Proof.Region1
import proofs.«177269_j88759794139141_2_alg».proof.Proof.Region2
import Idealize.ShloMosaic.Lib.StableHlo.Run

set_option maxRecDepth 16384

noncomputable section

namespace Cert.KernelIdeal.Boundaries

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The five arguments, as arrays of extended reals -/

abbrev x : S2x2048x1024.Idx → EReal := m ((c : Thread nD τ).loc main_arg0)
abbrev wqkv : S3072x1024.Idx → EReal := m ((c : Thread nD τ).loc main_arg1)
abbrev bqkv : S3072.Idx → EReal := m ((c : Thread nD τ).loc main_arg2)
abbrev wproj : S1024x1024.Idx → EReal := m ((c : Thread nD τ).loc main_arg3)
abbrev bproj : S1024.Idx → EReal := m ((c : Thread nD τ).loc main_arg4)

/-! ## Before the first pipeline -/

theorem entry0_input : (V1 m ρ c main_v4 : S4096x1024.Idx → EReal)
    = shapeCast S4096x1024 (x m c) Facts₀.shapeCasts_S2x2048x1024_S4096x1024 := by
  show StableHlo.after hostOps0 (W0 m ρ c) (Proc.devRef .tc main_v4) = _
  after_results
  rfl

theorem entry0_weight : (V1 m ρ c main_v2 : S1024x3072.Idx → EReal)
    = transpose S1024x3072 [1, 0] (wqkv m c) Facts₀.transposes_S3072x1024_S1024x3072_1_0 := by
  show StableHlo.after hostOps0 (W0 m ρ c) (Proc.devRef .tc main_v2) = _
  after_results
  rfl

theorem entry0_bias : (V1 m ρ c main_v3 : S1x3072.Idx → EReal)
    = shapeCast S1x3072 (bqkv m c) Facts₀.shapeCasts_S3072_S1x3072 := by
  show StableHlo.after hostOps0 (W0 m ρ c) (Proc.devRef .tc main_v3) = _
  after_results
  rfl

/-! ## After the first pipeline -/

/-- The projection's array, of the arguments. -/
def qkv : S4096x3072.Idx → EReal :=
  Region0.proj (shapeCast S4096x1024 (x m c) Facts₀.shapeCasts_S2x2048x1024_S4096x1024)
    (transpose S1024x3072 [1, 0] (wqkv m c) Facts₀.transposes_S3072x1024_S1024x3072_1_0)
    (shapeCast S1x3072 (bqkv m c) Facts₀.shapeCasts_S3072_S1x3072)

theorem exit0 : (W2 m ρ c (Proc.devRef .tc main_v5) : S4096x3072.Idx → EReal) = qkv m c := by
  refine ((W2_arr m ρ c 3).trans (Region0.array_eq (V1 m ρ) c)).trans ?_
  unfold qkv
  rw [entry0_input, entry0_weight, entry0_bias]

/-! ## Before the second pipeline -/

/-- Group g of the projection's columns (0 the queries, 1 the keys, 2 the values) as a [32, 2048, 64] array. -/
def group (g : Nat) (hs : S3x2x16x2048x64.Slices ![g, 0, 0, 0, 0] S1x2x16x2048x64) (y : S4096x3072.Idx → EReal) :
    S32x2048x64.Idx → EReal :=
  shapeCast S32x2048x64
    (shapeCast S2x16x2048x64
      (extractStridedSlice S1x2x16x2048x64 ![g, 0, 0, 0, 0]
        (transpose S3x2x16x2048x64 [0, 1, 3, 2, 4]
          (transpose S3x2x2048x16x64 [2, 0, 1, 3, 4]
            (shapeCast S2x2048x3x16x64 y Facts₀.shapeCasts_S4096x3072_S2x2048x3x16x64)
            Facts₀.transposes_S2x2048x3x16x64_S3x2x2048x16x64_2_0_1_3_4)
          Facts₀.transposes_S3x2x2048x16x64_S3x2x16x2048x64_0_1_3_2_4)
        hs)
      Facts₀.shapeCasts_S1x2x16x2048x64_S2x16x2048x64)
    Facts₀.shapeCasts_S2x16x2048x64_S32x2048x64

theorem entry1_q : (V3 m ρ c main_v15 : S32x2048x64.Idx → EReal)
    = group 0 Facts₀.slices_S3x2x16x2048x64_S1x2x16x2048x64_0_0_0_0_0 (qkv m c) := by
  rw [← exit0 m ρ c]
  show StableHlo.after hostOps1 (W2 m ρ c) (Proc.devRef .tc main_v15) = _
  after_results
  rfl

theorem entry1_k : (V3 m ρ c main_v16 : S32x2048x64.Idx → EReal)
    = group 1 Facts₀.slices_S3x2x16x2048x64_S1x2x16x2048x64_1_0_0_0_0 (qkv m c) := by
  rw [← exit0 m ρ c]
  show StableHlo.after hostOps1 (W2 m ρ c) (Proc.devRef .tc main_v16) = _
  after_results
  rfl

theorem entry1_v : (V3 m ρ c main_v17 : S32x2048x64.Idx → EReal)
    = group 2 Facts₀.slices_S3x2x16x2048x64_S1x2x16x2048x64_2_0_0_0_0 (qkv m c) := by
  rw [← exit0 m ρ c]
  show StableHlo.after hostOps1 (W2 m ρ c) (Proc.devRef .tc main_v17) = _
  after_results
  rfl

/-! ## After the second pipeline -/

/-- The attention's array, of the arguments. -/
def heads : S32x2048x64.Idx → EReal :=
  Region1.attn (group 0 Facts₀.slices_S3x2x16x2048x64_S1x2x16x2048x64_0_0_0_0_0 (qkv m c))
    (group 1 Facts₀.slices_S3x2x16x2048x64_S1x2x16x2048x64_1_0_0_0_0 (qkv m c))
    (group 2 Facts₀.slices_S3x2x16x2048x64_S1x2x16x2048x64_2_0_0_0_0 (qkv m c))

theorem exit1 : (W4 m ρ c (Proc.devRef .tc main_v18) : S32x2048x64.Idx → EReal) = heads m c := by
  refine ((W4_arr m ρ c 3).trans (Region1.array_eq (V3 m ρ) c)).trans ?_
  unfold heads
  rw [entry1_q, entry1_k, entry1_v]

/-- Neither pipeline so far nor the host wrote the output projection's weight … -/
theorem W4_main_arg3 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

/-- … nor its bias. -/
theorem W4_main_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

/-! ## Before the third pipeline -/

/-- The attention's array with the heads joined back into 1024 columns, as a [4096, 1024] array. -/
def joined (y : S32x2048x64.Idx → EReal) : S4096x1024.Idx → EReal :=
  shapeCast S4096x1024
    (shapeCast S2x2048x1024
      (transpose S2x2048x16x64 [0, 2, 1, 3]
        (shapeCast S2x16x2048x64 y Facts₀.shapeCasts_S32x2048x64_S2x16x2048x64)
        Facts₀.transposes_S2x16x2048x64_S2x2048x16x64_0_2_1_3)
      Facts₀.shapeCasts_S2x2048x16x64_S2x2048x1024)
    Facts₀.shapeCasts_S2x2048x1024_S4096x1024

theorem entry2_input : (V5 m ρ c main_v22 : S4096x1024.Idx → EReal) = joined (heads m c) := by
  rw [← exit1 m ρ c]
  show StableHlo.after hostOps2 (W4 m ρ c) (Proc.devRef .tc main_v22) = _
  after_results
  rfl

theorem entry2_weight : (V5 m ρ c main_v24 : S1024x1024.Idx → EReal)
    = transpose S1024x1024 [1, 0] (wproj m c) Facts₀.transposes_S1024x1024_S1024x1024_1_0 := by
  show StableHlo.after hostOps2 (W4 m ρ c) (Proc.devRef .tc main_v24) = _
  after_results
  rw [W4_main_arg3]
  rfl

theorem entry2_bias : (V5 m ρ c main_v25 : S1x1024.Idx → EReal)
    = shapeCast S1x1024 (bproj m c) Facts₀.shapeCasts_S1024_S1x1024 := by
  show StableHlo.after hostOps2 (W4 m ρ c) (Proc.devRef .tc main_v25) = _
  after_results
  rw [W4_main_arg4]
  rfl

/-! ## After the third pipeline, and the result -/

/-- The output projection's array, of the arguments. -/
def projected : S4096x1024.Idx → EReal :=
  Region2.proj (joined (heads m c))
    (transpose S1024x1024 [1, 0] (wproj m c) Facts₀.transposes_S1024x1024_S1024x1024_1_0)
    (shapeCast S1x1024 (bproj m c) Facts₀.shapeCasts_S1024_S1x1024)

theorem exit2 : (W6 m ρ c (Proc.devRef .tc main_v26) : S4096x1024.Idx → EReal) = projected m c := by
  refine ((W6_arr m ρ c 3).trans (Region2.array_eq (V5 m ρ) c)).trans ?_
  unfold projected
  rw [entry2_input, entry2_weight, entry2_bias]

/-- The result array at the last boundary: the output projection's array seen as [2, 2048, 1024]. -/
theorem result : (W7 m ρ c (Proc.devRef .tc main_v27) : S2x2048x1024.Idx → EReal)
    = shapeCast S2x2048x1024 (projected m c) Facts₀.shapeCasts_S4096x1024_S2x2048x1024 := by
  rw [← exit2 m ρ c]
  show StableHlo.after hostOps3 (W6 m ρ c) (Proc.devRef .tc main_v27) = _
  after_results
  rfl

end Cert.KernelIdeal.Boundaries

end
-- ==== Proof.RefStages.lean ====
/-
  The reference's three computed stages, read at an entry given by its coordinates.

  The projection: entry (b, s, n) of the [2, 2048, 3072] array is the sum over k of input (b, s, k) times weight
  (n, k), plus bias n. The attention: entry (b, h, s, d) of the [2, 16, 2048, 64] array is the attention of query row
  (b, h, s) against the key and value rows of head (b, h), at the scale one over the square root of sixty-four; the
  reference takes each row's maximum from minus infinity, takes one more maximum with minus infinity, subtracts,
  exponentiates, divides by the row sum taken from zero. The output projection: entry (b, s, n) of the result is the
  sum over k of the joined heads' (b, s, k) times weight (n, k), plus bias n.
-/
import proofs.«177269_j88759794139141_2_alg».proof.Proof.Gen.ReferenceIdeal.Read
import proofs.«177269_j88759794139141_2_alg».proof.Proof.LibSoftmaxRows
import proofs.«177269_j88759794139141_2_alg».proof.Proof.Attention
import Idealize.ShloMosaic.Lib.ValueIdx
import Idealize.ShloMosaic.PureOps.Ideal.Laws

set_option maxRecDepth 16384

noncomputable section

open scoped BigOperators

namespace Cert.ReferenceIdeal.Stages

open Cert.ReferenceIdeal Cert.ReferenceIdeal.Read
open Idealize.ShloMosaic Idealize.ShloMosaic.ValueIdx
open Cert.Attention Cert.Lib.SoftmaxRows

variable (x : (⟨S2x2048x1024, .f32⟩ : BufTy).Contents (Elt Ideal)) (W : (⟨S3072x1024, .f32⟩ : BufTy).Contents (Elt Ideal))
  (b : (⟨S3072, .f32⟩ : BufTy).Contents (Elt Ideal))

/-- The projection at (B, S, n). -/
theorem projection_at (B : Fin 2) (S : Fin 2048) (n : Fin 3072) :
    val_main_v3 (F := Ideal) x W b (ix3 B S n) = (∑ k : Fin 1024, x (ix3 B S k) * W (ix2 n k)) + b (ix1 n) := by
  rw [val_main_v3_apply, val_main_v0_apply, val_main_v2_apply, val_main_v1_apply]
  refine congrArg₂ (· + ·) (Finset.sum_congr rfl fun k _ => congrArg₂ (· * ·) (congrArg x ?_) (congrArg W ?_)) (congrArg b ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-- The output projection at (B, S, n), over the joined heads. -/
theorem output_at (Wp : (⟨S1024x1024, .f32⟩ : BufTy).Contents (Elt Ideal)) (bp : (⟨S1024, .f32⟩ : BufTy).Contents (Elt Ideal))
    (B : Fin 2) (S : Fin 2048) (n : Fin 1024) :
    val_main_v35 (F := Ideal) x W b Wp bp (ix3 B S n)
      = (∑ k : Fin 1024, val_main_v31 (F := Ideal) x W b (ix3 B S k) * Wp (ix2 n k)) + bp (ix1 n) := by
  rw [val_main_v35_apply, val_main_v32_apply, val_main_v34_apply, val_main_v33_apply]
  refine congrArg₂ (· + ·) (Finset.sum_congr rfl fun k _ => congrArg₂ (· * ·)
    (congrArg (val_main_v31 (F := Ideal) x W b) ?_) (congrArg Wp ?_)) (congrArg bp ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)
  · exact funext fun a => Fin.ext (by match a with | ⟨0, _⟩ => rfl)

/-! ## The attention -/

/-- The reference's scale: one over the square root of sixty-four. -/
abbrev refScale : EReal := Ideal.div (Ideal.ofBits .f32 0x3F800000#32) (Ideal.sqrt (Ideal.ofBits .f32 0x42800000#32))

/-- The scaled scores of query row (B, H, s). -/
abbrev rowScores (B : Fin 2) (H : Fin 16) (s : Fin 2048) : Fin 2048 → EReal :=
  scores (fun d' => val_main_v8 (F := Ideal) x W b (ix4 B H s d')) (fun n d' => val_main_v10 (F := Ideal) x W b (ix4 B H n d')) refScale

/-- The scaled score array at (B, H, s, k) is score k of query row (B, H, s). -/
theorem scores_at (B : Fin 2) (H : Fin 16) (s k : Fin 2048) :
    val_main_v17 (F := Ideal) x W b (ix4 B H s k) = rowScores x W b B H s k := by
  rw [val_main_v17_apply, val_main_v15_apply, val_main_v16_apply, val_main_v14_apply, val_main_v13_apply]
  refine congrArg₂ (· * ·) (Finset.sum_congr rfl fun d' _ => congrArg₂ (· * ·)
    (congrArg (val_main_v8 (F := Ideal) x W b) ?_) (congrArg (val_main_v10 (F := Ideal) x W b) ?_)) rfl
  · exact funext fun a => Fin.ext (by match a with | ⟨0, _⟩ => rfl | ⟨1, _⟩ => rfl | ⟨2, _⟩ => rfl | ⟨3, _⟩ => rfl)
  · exact funext fun a => Fin.ext (by match a with | ⟨0, _⟩ => rfl | ⟨1, _⟩ => rfl | ⟨2, _⟩ => rfl | ⟨3, _⟩ => rfl)

/-- A reduced index (B, H, s) with coordinate k put back on the last axis is (B, H, s, k). -/
theorem lift_last (h : S2x16x2048x2048.Reduces [3] S2x16x2048) (B : Fin 2) (H : Fin 16) (s : Fin 2048)
    (k : Fin (S2x16x2048x2048.size 3)) : h.lift (ix3 B H s) k = ix4 B H s (⟨k.val, k.isLt⟩ : Fin 2048) := by
  funext c; apply Fin.ext
  fin_cases c <;> rfl

/-- The row maximum the reference subtracts at (B, H, s): the maximum of the row's scores from minus infinity. -/
theorem rowMax_at (B : Fin 2) (H : Fin 16) (s : Fin 2048) :
    val_main_v20 (F := Ideal) x W b (ix3 B H s) = rowMax (rowScores x W b B H s) := by
  have hred : S2x16x2048x2048.Reduces [3] S2x16x2048 := by decide
  rw [val_main_v20_apply, val_main_v19_apply]
  unfold val_main_v18
  rw [Host.reduce_eq_fold_single FloatOps.maximumf _ _ Facts₀.reducesTo_S2x16x2048x2048_S2x16x2048_d3 hred Facts₀.h_S_]
  have hf : (val_main_v17 (F := Ideal) x W b ∘ hred.lift (ix3 B H s)) = fun k : Fin 2048 => rowScores x W b B H s k :=
    funext fun k => (congrArg (val_main_v17 (F := Ideal) x W b) (lift_last hred B H s k)).trans (scores_at x W b B H s k)
  refine Eq.trans ?_ (max_negInf_rowMax (rowScores x W b B H s))
  refine congrArg (max negInf) ?_
  exact congrArg (fun f => Finset.fold max negInf f (Finset.univ : Finset (Fin 2048))) hf

/-- The exponential the reference forms at (B, H, s, k). -/
theorem exp_at (B : Fin 2) (H : Fin 16) (s k : Fin 2048) :
    val_main_v24 (F := Ideal) x W b (ix4 B H s k)
      = Ideal.exp (rowScores x W b B H s k - rowMax (rowScores x W b B H s)) := by
  rw [val_main_v24_apply, val_main_v23_apply, val_main_v22_apply, val_main_v21_apply, scores_at]
  have hi : idx_main_v21 (idx_main_v22 (ix4 B H s k)) = ix3 B H s :=
    funext fun a => Fin.ext (by match a with | ⟨0, _⟩ => rfl | ⟨1, _⟩ => rfl | ⟨2, _⟩ => rfl)
  rw [hi, rowMax_at]
  rfl

/-- The row sum the reference divides by at (B, H, s, k): the sum of the row's exponentials. -/
theorem rowSum_at (B : Fin 2) (H : Fin 16) (s k : Fin 2048) :
    val_main_v27 (F := Ideal) x W b (ix4 B H s k)
      = ∑ k' : Fin 2048, Ideal.exp (rowScores x W b B H s k' - rowMax (rowScores x W b B H s)) := by
  rw [val_main_v27_apply, val_main_v26_apply, val_main_v25_apply, val_main_cst_3_apply]
  show Ideal.ofBits .f32 0x00000000#32 + _ = _
  rw [Ideal.ofBits_zero_f32, zero_add]
  refine Finset.sum_congr rfl fun k' _ => ?_
  have hi : idx_main_v25 (idx_main_v26 (idx_main_v27 (ix4 B H s k))) k' = ix4 B H s k' :=
    funext fun a => Fin.ext (by match a with | ⟨0, _⟩ => rfl | ⟨1, _⟩ => rfl | ⟨2, _⟩ => rfl | ⟨3, _⟩ => rfl)
  rw [hi, exp_at]

/-- The attention at (B, H, s, d). -/
theorem attention_at (B : Fin 2) (H : Fin 16) (s : Fin 2048) (d : Fin 64) :
    val_main_v29 (F := Ideal) x W b (ix4 B H s d)
      = attend (fun d' => val_main_v8 (F := Ideal) x W b (ix4 B H s d')) (fun n d' => val_main_v10 (F := Ideal) x W b (ix4 B H n d'))
          (fun n d' => val_main_v12 (F := Ideal) x W b (ix4 B H n d')) refScale d := by
  rw [val_main_v29_apply]
  unfold attend
  refine Finset.sum_congr rfl fun n _ => congrArg₂ (· * ·) ?_ (congrArg (val_main_v12 (F := Ideal) x W b) ?_)
  · have hi : lidx_main_v29 (ix4 B H s d) n = ix4 B H s n :=
      funext fun a => Fin.ext (by match a with | ⟨0, _⟩ => rfl | ⟨1, _⟩ => rfl | ⟨2, _⟩ => rfl | ⟨3, _⟩ => rfl)
    rw [hi, val_main_v28_apply, exp_at, rowSum_at]
    rfl
  · exact funext fun a => Fin.ext (by match a with | ⟨0, _⟩ => rfl | ⟨1, _⟩ => rfl | ⟨2, _⟩ => rfl | ⟨3, _⟩ => rfl)

end Cert.ReferenceIdeal.Stages

end
-- ==== Proof.LibReshape.lean ====
/-
  Reshapes compose, for any three shapes of one element count and any element type: reading an array through a
  second shape and then through a third is reading it through the third. With it a chain of reshapes collapses to
  its last shape, and a reshape there and back, or to the shape the array already has, drops out.
-/
import Idealize.ShloMosaic.Lib.Pipeline.Value

noncomputable section

namespace Cert.LibReshape

open Idealize.ShloMosaic

variable {α : Type}

/-- A reshape of a reshape is the reshape to the last shape. -/
theorem shapeCast_comp {s t u : Shape} (v : s.Idx → α) (h : s.ShapeCasts t) (h' : t.ShapeCasts u) (h'' : s.ShapeCasts u) :
    shapeCast u (shapeCast t v h) h' = shapeCast u v h'' :=
  funext fun i => congrArg v (Shape.reshapeEquiv_reshapeEquiv _ _ i)

/-- Two arrays that are reshapes of each other one way are so the other way. -/
theorem eq_shapeCast_of_shapeCast_eq {s t : Shape} (v : s.Idx → α) (w : t.Idx → α) (h : s.ShapeCasts t) (h' : t.ShapeCasts s)
    (e : w = shapeCast t v h) : shapeCast s w h' = v := by
  rw [e]; exact shapeCast_shapeCast v h h'

end Cert.LibReshape

end
-- ==== Proof.Bridge.lean ====
/-
  The idealized kernel's result is the reference's result.

  Each pipeline's output array is a reference stage seen through another shape with the same elements in the same
  row-major order: the projection's [4096, 3072] array is the reference's [2, 2048, 3072] projection; the attention's
  [32, 2048, 64] array is the reference's [2, 16, 2048, 64] attention; the output projection's [4096, 1024] array is
  the reference's [2, 2048, 1024] result. Inside a pipeline the two sides are the same sums and the same softmax of
  the same entries (row r of 4096 is (r / 2048, r % 2048); pair bh of 32 is (bh / 16, bh % 16)); the kernel reads its
  weights transposed and the reference contracts against the untransposed weights; the two scales are one number.
  Between the pipelines both programs apply the same transposes and slices, and reshapes compose.
-/
import proofs.«177269_j88759794139141_2_alg».proof.Proof.Boundaries
import proofs.«177269_j88759794139141_2_alg».proof.Proof.RefStages
import proofs.«177269_j88759794139141_2_alg».proof.Proof.LibReshape
import Idealize.ShloMosaic.Lib.ValueLayout

set_option maxRecDepth 16384

noncomputable section

open scoped BigOperators

namespace Cert.Bridge

open Cert.KernelIdeal Cert.KernelIdeal.Boundaries
open Cert.ReferenceIdeal.Read
open Idealize.ShloMosaic Idealize.ShloMosaic.ValueIdx Idealize.ShloMosaic.TcCoe Idealize.SL.Sem
open Cert.LibReshape Cert.Attention

/-! ## The two projections -/

/-- The first pipeline's array, of a [2, 2048, 1024] input seen as [4096, 1024], a transposed [3072, 1024] weight and a bias laid out as a row, is any [2, 2048, 3072] array with the projection's entries, seen as [4096, 3072]. -/
theorem proj0_eq (a : S2x2048x1024.Idx → EReal) (w : S3072x1024.Idx → EReal) (bias : S3072.Idx → EReal)
    (h1 : S2x2048x1024.ShapeCasts S4096x1024) (h2 : S3072x1024.Transposes [1, 0] S1024x3072)
    (h3 : S3072.ShapeCasts S1x3072) (h4 : Cert.ReferenceIdeal.S2x2048x3072.ShapeCasts S4096x3072)
    (ref : Cert.ReferenceIdeal.S2x2048x3072.Idx → EReal)
    (href : ∀ (B : Fin 2) (S : Fin 2048) (n : Fin 3072),
      ref (ix3 B S n) = (∑ k : Fin 1024, a (ix3 B S k) * w (ix2 n k)) + bias (ix1 n)) :
    Region0.proj (shapeCast S4096x1024 a h1) (transpose S1024x3072 [1, 0] w h2) (shapeCast S1x3072 bias h3)
      = shapeCast S4096x3072 ref h4 := by
  funext i
  obtain ⟨r, n, rfl⟩ : ∃ (r : Fin 4096) (n : Fin 3072), i = ix2 r n := ⟨i 0, i 1, eq_ix2 i⟩
  have hr : r.val < 4096 := r.isLt
  have hR : shapeCast S4096x3072 ref h4 (ix2 r n)
      = ref (ix3 (⟨r.val / 2048, by omega⟩ : Fin 2) (⟨r.val % 2048, Nat.mod_lt _ (by decide)⟩ : Fin 2048) n) :=
    shapeCast_apply ref h4 _ _ (by
      rw [Shape.rowMajor_val_three, Shape.rowMajor_val_two]
      show (r.val / 2048 * 2048 + r.val % 2048) * 3072 + n.val = r.val * 3072 + n.val
      omega)
  rw [hR, href]
  unfold Region0.proj Region0.rowDot
  refine congrArg₂ (· + ·) (Finset.sum_congr rfl fun k _ => congrArg₂ (· * ·) ?_ ?_) ?_
  · exact shapeCast_apply a h1 _ _ (by
      rw [Shape.rowMajor_val_three, Shape.rowMajor_val_two]
      show (r.val / 2048 * 2048 + r.val % 2048) * 1024 + k.val = r.val * 1024 + k.val
      omega)
  · exact transpose_apply [1, 0] w h2 _ (ix2 n k) (fun a => match a with | ⟨0, _⟩ => rfl | ⟨1, _⟩ => rfl)
  · exact shapeCast_a_1a_apply bias h3 (0 : Fin 1) n

/-- The third pipeline's array, of a [2, 2048, 1024] input seen as [4096, 1024], a transposed [1024, 1024] weight and a bias laid out as a row, is any [2, 2048, 1024] array with the projection's entries, seen as [4096, 1024]. -/
theorem proj2_eq (a : S2x2048x1024.Idx → EReal) (w : S1024x1024.Idx → EReal) (bias : S1024.Idx → EReal)
    (h1 : S2x2048x1024.ShapeCasts S4096x1024) (h2 : S1024x1024.Transposes [1, 0] S1024x1024)
    (h3 : S1024.ShapeCasts S1x1024) (h4 : Cert.ReferenceIdeal.S2x2048x1024.ShapeCasts S4096x1024)
    (ref : Cert.ReferenceIdeal.S2x2048x1024.Idx → EReal)
    (href : ∀ (B : Fin 2) (S : Fin 2048) (n : Fin 1024),
      ref (ix3 B S n) = (∑ k : Fin 1024, a (ix3 B S k) * w (ix2 n k)) + bias (ix1 n)) :
    Region2.proj (shapeCast S4096x1024 a h1) (transpose S1024x1024 [1, 0] w h2) (shapeCast S1x1024 bias h3)
      = shapeCast S4096x1024 ref h4 := by
  funext i
  obtain ⟨r, n, rfl⟩ : ∃ (r : Fin 4096) (n : Fin 1024), i = ix2 r n := ⟨i 0, i 1, eq_ix2 i⟩
  have hr : r.val < 4096 := r.isLt
  have hR : shapeCast S4096x1024 ref h4 (ix2 r n)
      = ref (ix3 (⟨r.val / 2048, by omega⟩ : Fin 2) (⟨r.val % 2048, Nat.mod_lt _ (by decide)⟩ : Fin 2048) n) :=
    shapeCast_apply ref h4 _ _ (by
      rw [Shape.rowMajor_val_three, Shape.rowMajor_val_two]
      show (r.val / 2048 * 2048 + r.val % 2048) * 1024 + n.val = r.val * 1024 + n.val
      omega)
  rw [hR, href]
  unfold Region2.proj Region2.rowDot
  refine congrArg₂ (· + ·) (Finset.sum_congr rfl fun k _ => congrArg₂ (· * ·) ?_ ?_) ?_
  · exact shapeCast_apply a h1 _ _ (by
      rw [Shape.rowMajor_val_three, Shape.rowMajor_val_two]
      show (r.val / 2048 * 2048 + r.val % 2048) * 1024 + k.val = r.val * 1024 + k.val
      omega)
  · exact transpose_apply [1, 0] w h2 _ (ix2 n k) (fun a => match a with | ⟨0, _⟩ => rfl | ⟨1, _⟩ => rfl)
  · exact shapeCast_a_1a_apply bias h3 (0 : Fin 1) n

/-! ## Between the first two pipelines: the same transposes and slices on both sides -/

section
variable (a : (⟨Cert.ReferenceIdeal.S2x2048x1024, .f32⟩ : BufTy).Contents (Elt Ideal))
  (w : (⟨Cert.ReferenceIdeal.S3072x1024, .f32⟩ : BufTy).Contents (Elt Ideal))
  (bias : (⟨Cert.ReferenceIdeal.S3072, .f32⟩ : BufTy).Contents (Elt Ideal))

/-- Group 0 of the projection's columns, flattened to 32 pairs, is the reference's query array seen as [32, 2048, 64]. -/
theorem group0_eq (hs : S3x2x16x2048x64.Slices ![0, 0, 0, 0, 0] S1x2x16x2048x64)
    (h4 : Cert.ReferenceIdeal.S2x2048x3072.ShapeCasts S4096x3072)
    (h8 : Cert.ReferenceIdeal.S2x16x2048x64.ShapeCasts S32x2048x64) :
    group 0 hs (shapeCast S4096x3072 (val_main_v3 (F := Ideal) a w bias) h4)
      = shapeCast S32x2048x64 (val_main_v8 (F := Ideal) a w bias) h8 := by
  unfold group
  rw [shapeCast_comp (val_main_v3 (F := Ideal) a w bias) h4 Facts₀.shapeCasts_S4096x3072_S2x2048x3x16x64
    Cert.ReferenceIdeal.Facts₀.shapeCasts_S2x2048x3072_S2x2048x3x16x64]
  rfl

/-- Group 1 of the projection's columns, flattened to 32 pairs, is the reference's key array seen as [32, 2048, 64]. -/
theorem group1_eq (hs : S3x2x16x2048x64.Slices ![1, 0, 0, 0, 0] S1x2x16x2048x64)
    (h4 : Cert.ReferenceIdeal.S2x2048x3072.ShapeCasts S4096x3072)
    (h8 : Cert.ReferenceIdeal.S2x16x2048x64.ShapeCasts S32x2048x64) :
    group 1 hs (shapeCast S4096x3072 (val_main_v3 (F := Ideal) a w bias) h4)
      = shapeCast S32x2048x64 (val_main_v10 (F := Ideal) a w bias) h8 := by
  unfold group
  rw [shapeCast_comp (val_main_v3 (F := Ideal) a w bias) h4 Facts₀.shapeCasts_S4096x3072_S2x2048x3x16x64
    Cert.ReferenceIdeal.Facts₀.shapeCasts_S2x2048x3072_S2x2048x3x16x64]
  rfl

/-- Group 2 of the projection's columns, flattened to 32 pairs, is the reference's value array seen as [32, 2048, 64]. -/
theorem group2_eq (hs : S3x2x16x2048x64.Slices ![2, 0, 0, 0, 0] S1x2x16x2048x64)
    (h4 : Cert.ReferenceIdeal.S2x2048x3072.ShapeCasts S4096x3072)
    (h8 : Cert.ReferenceIdeal.S2x16x2048x64.ShapeCasts S32x2048x64) :
    group 2 hs (shapeCast S4096x3072 (val_main_v3 (F := Ideal) a w bias) h4)
      = shapeCast S32x2048x64 (val_main_v12 (F := Ideal) a w bias) h8 := by
  unfold group
  rw [shapeCast_comp (val_main_v3 (F := Ideal) a w bias) h4 Facts₀.shapeCasts_S4096x3072_S2x2048x3x16x64
    Cert.ReferenceIdeal.Facts₀.shapeCasts_S2x2048x3072_S2x2048x3x16x64]
  rfl

/-! ## The attention -/

/-- A [2, 16, 2048, 64] array seen as [32, 2048, 64]: pair bh is batch bh / 16, head bh % 16. -/
theorem pair_read (h8 : Cert.ReferenceIdeal.S2x16x2048x64.ShapeCasts S32x2048x64)
    (Y : Cert.ReferenceIdeal.S2x16x2048x64.Idx → EReal) (bh : Fin 32) (s : Fin 2048) (d : Fin 64) :
    shapeCast S32x2048x64 Y h8 (ix3 bh s d)
      = Y (ix4 (⟨bh.val / 16, by have := bh.isLt; omega⟩ : Fin 2) (⟨bh.val % 16, Nat.mod_lt _ (by decide)⟩ : Fin 16) s d) :=
  shapeCast_apply Y h8 _ _ (by
    rw [Shape.rowMajor_val_four, Shape.rowMajor_val_three]
    show ((bh.val / 16 * 16 + bh.val % 16) * 2048 + s.val) * 64 + d.val = (bh.val * 2048 + s.val) * 64 + d.val
    have := bh.isLt
    omega)

/-- The second pipeline's array, of the reference's query, key and value arrays seen as [32, 2048, 64], is the
    reference's attention seen as [32, 2048, 64]. -/
theorem attn_eq (h8 : Cert.ReferenceIdeal.S2x16x2048x64.ShapeCasts S32x2048x64) :
    Region1.attn (shapeCast S32x2048x64 (val_main_v8 (F := Ideal) a w bias) h8)
        (shapeCast S32x2048x64 (val_main_v10 (F := Ideal) a w bias) h8)
        (shapeCast S32x2048x64 (val_main_v12 (F := Ideal) a w bias) h8)
      = shapeCast S32x2048x64 (val_main_v29 (F := Ideal) a w bias) h8 := by
  funext i
  obtain ⟨bh, s, d, rfl⟩ : ∃ (bh : Fin 32) (s : Fin 2048) (d : Fin 64), i = ix3 bh s d := ⟨i 0, i 1, i 2, eq_ix3 i⟩
  rw [pair_read, Cert.ReferenceIdeal.Stages.attention_at]
  show attend (fun d' => shapeCast S32x2048x64 (val_main_v8 (F := Ideal) a w bias) h8 (ix3 bh s d'))
      (fun n d' => shapeCast S32x2048x64 (val_main_v10 (F := Ideal) a w bias) h8 (ix3 bh n d'))
      (fun n d' => shapeCast S32x2048x64 (val_main_v12 (F := Ideal) a w bias) h8 (ix3 bh n d'))
      (Ideal.ofBits .f32 0x3E000000#32) d = _
  rw [scale_eq]
  exact congrFun (congrFun (congr (congr (congrArg attend
      (funext fun d' => pair_read h8 (val_main_v8 (F := Ideal) a w bias) bh s d'))
      (funext fun n => funext fun d' => pair_read h8 (val_main_v10 (F := Ideal) a w bias) bh n d'))
      (funext fun n => funext fun d' => pair_read h8 (val_main_v12 (F := Ideal) a w bias) bh n d')) _) d

/-! ## Between the last two pipelines -/

/-- The attention's array with the heads joined back is the reference's joined heads seen as [4096, 1024]. -/
theorem joined_eq (h8 : Cert.ReferenceIdeal.S2x16x2048x64.ShapeCasts S32x2048x64)
    (h31 : Cert.ReferenceIdeal.S2x2048x1024.ShapeCasts S4096x1024) :
    joined (shapeCast S32x2048x64 (val_main_v29 (F := Ideal) a w bias) h8)
      = shapeCast S4096x1024 (val_main_v31 (F := Ideal) a w bias) h31 := by
  unfold joined
  rw [shapeCast_shapeCast (val_main_v29 (F := Ideal) a w bias) h8 Facts₀.shapeCasts_S32x2048x64_S2x16x2048x64]
  rfl

end

/-! ## The result -/

/-- The result array the idealized kernel's run ends with is the reference's result stage of the same arguments. -/
theorem result_eq (m : (ℓ : Loc nD τ sig) → Buf (Elt Ideal) ℓ) (ρ : Dev nD → PrngReg) (c : Dev nD) :
    (Gen.W7 m ρ c (Proc.devRef .tc main_v27) : S2x2048x1024.Idx → EReal)
      = val_main_v35 (F := Ideal) (x m c) (wqkv m c) (bqkv m c) (wproj m c) (bproj m c) := by
  rw [Boundaries.result]
  unfold projected heads qkv
  rw [proj0_eq (x m c) (wqkv m c) (bqkv m c) _ _ _ (by decide) (val_main_v3 (F := Ideal) (x m c) (wqkv m c) (bqkv m c))
      (Cert.ReferenceIdeal.Stages.projection_at _ _ _),
    group0_eq _ _ _ _ _ (by decide), group1_eq _ _ _ _ _ (by decide), group2_eq _ _ _ _ _ (by decide),
    attn_eq, joined_eq _ _ _ _ (by decide),
    proj2_eq _ (wproj m c) (bproj m c) _ _ _ (by decide)
      (val_main_v35 (F := Ideal) (x m c) (wqkv m c) (bqkv m c) (wproj m c) (bproj m c))
      (Cert.ReferenceIdeal.Stages.output_at _ _ _ _ _)]
  exact shapeCast_shapeCast _ _ _

end Cert.Bridge

end
-- ==== Proof.lean ====
/-
  Multi-head self-attention in three pipelined kernels against its plain reference: the certificate's five claims.

  The kernel projects the [2, 2048, 1024] input onto queries, keys and values with one [4096, 1024] x [1024, 3072]
  product plus bias, attends in each of the 32 batch-head pairs (scores scaled by one eighth, a row softmax, the
  weighted sum of the value rows), and projects the joined heads with one [4096, 1024] x [1024, 1024] product plus
  bias. The reference computes the same three stages on [2, 2048, ...] and [2, 16, 2048, ...] arrays, contracting
  against the untransposed weights and scaling by one over the square root of sixty-four.

  On the extended reals the two are one function of the five arguments: every pipeline's output array is the
  reference's stage seen through another shape (Proof/Bridge.lean), reading each pipeline's array off its grid steps'
  blocks (Proof/Region0.lean, Region1.lean, Region2.lean) and the buffers at the boundaries between the segments back
  to the arguments (Proof/Boundaries.lean); the reference's stages are read in Proof/RefStages.lean. Only
  commutativity and associativity of sums and the value of one constant are used, so the finiteness of the inputs is
  not needed. The kernel's idealization rewrote no operation, so that claim is trivial; the three frames are the
  generated ones.
-/
import proofs.«177269_j88759794139141_2_alg».proof.Defs
import proofs.«177269_j88759794139141_2_alg».proof.Proof.Gen.Kernel
import proofs.«177269_j88759794139141_2_alg».proof.Proof.Gen.Kernel.Skeleton
import proofs.«177269_j88759794139141_2_alg».proof.Proof.Gen.Kernel.Launch
import proofs.«177269_j88759794139141_2_alg».proof.Proof.Gen.Kernel.Points
import proofs.«177269_j88759794139141_2_alg».proof.Proof.Gen.Kernel.Frame
import proofs.«177269_j88759794139141_2_alg».proof.Proof.Gen.KernelIdeal
import proofs.«177269_j88759794139141_2_alg».proof.Proof.Gen.KernelIdeal.Skeleton
import proofs.«177269_j88759794139141_2_alg».proof.Proof.Gen.KernelIdeal.Launch
import proofs.«177269_j88759794139141_2_alg».proof.Proof.Gen.KernelIdeal.Points
import proofs.«177269_j88759794139141_2_alg».proof.Proof.Gen.KernelIdeal.Frame
import proofs.«177269_j88759794139141_2_alg».proof.Proof.Gen.ReferenceIdeal
import proofs.«177269_j88759794139141_2_alg».proof.Proof.Gen.ReferenceIdeal.Run
import proofs.«177269_j88759794139141_2_alg».proof.Proof.Gen.ReferenceIdeal.Read
import proofs.«177269_j88759794139141_2_alg».proof.Proof.Gen.Pre_finite_inputs
import proofs.«177269_j88759794139141_2_alg».proof.Proof.KernelRun
import proofs.«177269_j88759794139141_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs run and end with the same result array: the
    kernel's last boundary contents of its result buffer, which are the reference's result stage of the arguments. -/
theorem algebraic : Cert.algebraic_KernelIdeal_ReferenceIdeal := by
  intro m ρ m' ρ' _ hagree
  refine ⟨fun c => Cert.KernelIdeal.Gen.W7 m ρ c (Proc.devRef .tc Cert.KernelIdeal.main_v27),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v35_eq, (hagree c).1, (hagree c).2.1, (hagree c).2.2.1, (hagree c).2.2.2.1,
    (hagree c).2.2.2.2]
  exact (Cert.Bridge.result_eq m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
